-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S8192x4096 .f32) (main_arg2 : FVec F S8192x4096 .f32) (main_arg3 : FVec F S4096x4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S128x1024 : Shape := ⟨2, ![128, 1024]⟩

abbrev nBuf : Space → Nat
  | .hbm => 15
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S8192x4096, .bf16⟩
  | .hbm, ⟨8, _⟩ => ⟨S8192x4096, .bf16⟩
  | .hbm, ⟨9, _⟩ => ⟨S4096x4096, .bf16⟩
  | .hbm, ⟨10, _⟩ => ⟨S4096x4096, .bf16⟩
  | .hbm, ⟨11, _⟩ => ⟨S1x4096, .f32⟩
  | .hbm, ⟨12, _⟩ => ⟨S1x4096, .f32⟩
  | .hbm, ⟨13, _⟩ => ⟨S8192x4096, .f32⟩
  | .hbm, ⟨14, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 8], ![false, false, false]⟩

def k0_cond3 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_11 : BitVec 32 := 0#32
  let v18 : BitVec 1 := Scalar.cmpi .ne v17 c0_i32_11
  v18

def k0_mult1 : BitVec 32 :=
  let c0_i32_12 : BitVec 32 := 0#32
  let c128_i32 : BitVec 32 := 128#32
  let v19 : BitVec 32 := Scalar.muli c0_i32_12 c128_i32
  v19
def k0_off1 (c0_i32_12 : BitVec 32) : Fin 2 → Nat :=
  let c128_i32 : BitVec 32 := 128#32
  let v19 : BitVec 32 := Scalar.muli c0_i32_12 c128_i32
  let v20 : BitVec 32 := v19
  let v21 : Index := Scalar.indexCast v20
  let c0_13 : Index := 0#32
  ![v21.toNat, 0]
def k0_mult2 : BitVec 32 :=
  let c1_i32 : BitVec 32 := 1#32
  let c128_i32_21 : BitVec 32 := 128#32
  let v44 : BitVec 32 := Scalar.muli c1_i32 c128_i32_21
  v44
def k0_mult3 : BitVec 32 :=
  let c2_i32 : BitVec 32 := 2#32
  let c128_i32_30 : BitVec 32 := 128#32
  let v69 : BitVec 32 := Scalar.muli c2_i32 c128_i32_30
  v69
def k0_mult4 : BitVec 32 :=
  let c3_i32 : BitVec 32 := 3#32
  let c128_i32_39 : BitVec 32 := 128#32
  let v94 : BitVec 32 := Scalar.muli c3_i32 c128_i32_39
  v94
def k0_mult5 : BitVec 32 :=
  let c4_i32 : BitVec 32 := 4#32
  let c128_i32_48 : BitVec 32 := 128#32
  let v119 : BitVec 32 := Scalar.muli c4_i32 c128_i32_48
  v119
def k0_mult6 : BitVec 32 :=
  let c5_i32 : BitVec 32 := 5#32
  let c128_i32_57 : BitVec 32 := 128#32
  let v144 : BitVec 32 := Scalar.muli c5_i32 c128_i32_57
  v144
def k0_mult7 : BitVec 32 :=
  let c6_i32 : BitVec 32 := 6#32
  let c128_i32_66 : BitVec 32 := 128#32
  let v169 : BitVec 32 := Scalar.muli c6_i32 c128_i32_66
  v169
def k0_mult8 : BitVec 32 :=
  let c7_i32_75 : BitVec 32 := 7#32
  let c128_i32_76 : BitVec 32 := 128#32
  let v194 : BitVec 32 := Scalar.muli c7_i32_75 c128_i32_76
  v194
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  bitsLt_bf16_f32 : FTy.bits .bf16 < FTy.bits .f32
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, ∀ (k0_h3 : k0_cond3 i = 1#1), 128 ∣ k0_mult1.toNat
  k0_off1_inb : ∀ i : grid0.Coords, ∀ (k0_h3 : k0_cond3 i = 1#1), ∀ (r : Fin 8), ∀ a, (k0_off1 (BitVec.ofNat 32 r.val)) a + S128x1024.size a ≤ S1024x1024.size a
  k0_mult2_dvd : ∀ i : grid0.Coords, ∀ (k0_h3 : k0_cond3 i = 1#1), 128 ∣ k0_mult2.toNat
  k0_mult3_dvd : ∀ i : grid0.Coords, ∀ (k0_h3 : k0_cond3 i = 1#1), 128 ∣ k0_mult3.toNat
  k0_mult4_dvd : ∀ i : grid0.Coords, ∀ (k0_h3 : k0_cond3 i = 1#1), 128 ∣ k0_mult4.toNat
  k0_mult5_dvd : ∀ i : grid0.Coords, ∀ (k0_h3 : k0_cond3 i = 1#1), 128 ∣ k0_mult5.toNat
  k0_mult6_dvd : ∀ i : grid0.Coords, ∀ (k0_h3 : k0_cond3 i = 1#1), 128 ∣ k0_mult6.toNat
  k0_mult7_dvd : ∀ i : grid0.Coords, ∀ (k0_h3 : k0_cond3 i = 1#1), 128 ∣ k0_mult7.toNat
  k0_mult8_dvd : ∀ i : grid0.Coords, ∀ (k0_h3 : k0_cond3 i = 1#1), 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .bf16 = 32 ∨ (Rect.block (s := S8192x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .bf16 = 32 ∨ (Rect.block (s := S4096x4096) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x4096.size a
  hwx0_8 : ∀ i : grid0.Coords, EltTy.bits .f32 = 32 ∨ (Rect.block (s := S8192x4096) S1024x1024.size (cc0_transform_8 i) (hinb0_8 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond3 i == 1#1) | 8 => fun i => !(k0_cond3 i == 1#1) | ⟨_ + 9, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KW.Cases.lean ====
/-
  The three situations a grid point of the gate kernel can be in, and what is common to the three runs.

  The grid is (row tile i, column tile j, contraction step k) with k innermost, so point number t has
  k = t mod 8.  The body accumulates the two partial products of step k into a scratch tile: it OVERWRITES
  the scratch when k = 0, ADDS to it when k > 0, and when k = 7 also finishes the tile (adds the two
  biases, applies the gate nonlinearities, stores the two result tiles).  The three branch conditions are
  decided here over the whole grid in closed form, together with where the two result windows are idle.
-/
import proofs.«142987_j23811298689968_2_alg».proof.Proof.Gen.Kernel.Frame
import proofs.«142987_j23811298689968_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The body's first branch: the contraction step is the first one. -/
abbrev condFirst (i : grid0.Coords) : Prop :=
  (Scalar.cmpi .ne (Scalar.extui (Scalar.cmpi .eq (BitVec.ofNat 32 (i 2).val) 0#32)) 0#32) = 1#1
theorem condFirst_iff : ∀ t : Fin cfg0.N, condFirst (grid0.coords t) ↔ t.val % 8 = 0 :=
  (by decide +kernel : ∀ t : Fin grid0.N, condFirst (grid0.coords t) ↔ t.val % 8 = 0)

/-- The body's second branch: the contraction step is a later one. -/
abbrev condLater (i : grid0.Coords) : Prop :=
  (Scalar.cmpi .ne (Scalar.extui (Scalar.cmpi .sgt (BitVec.ofNat 32 (i 2).val) 0#32)) 0#32) = 1#1
theorem condLater_iff : ∀ t : Fin cfg0.N, condLater (grid0.coords t) ↔ ¬ t.val % 8 = 0 :=
  (by decide +kernel : ∀ t : Fin grid0.N, condLater (grid0.coords t) ↔ ¬ t.val % 8 = 0)

/-- The body's third branch: the contraction step is the last one. -/
abbrev condLast (i : grid0.Coords) : Prop := k0_cond3 i = 1#1
theorem condLast_iff : ∀ t : Fin cfg0.N, condLast (grid0.coords t) ↔ t.val % 8 = 7 :=
  (by decide +kernel : ∀ t : Fin grid0.N, condLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
theorem live_in5 : ∀ t : Fin cfg0.N, cfg0.idle 5 (grid0.coords t) = false := by decide +kernel
theorem live_in6 : ∀ t : Fin cfg0.N, cfg0.idle 6 (grid0.coords t) = false := by decide +kernel
/-- Away from the last contraction step the two result windows are idle and not written back. -/
theorem idle_out7 : ∀ t : Fin cfg0.N, ¬condLast (grid0.coords t) → cfg0.idle 7 (grid0.coords t) = true := by decide +kernel
theorem idle_out8 : ∀ t : Fin cfg0.N, ¬condLast (grid0.coords t) → cfg0.idle 8 (grid0.coords t) = true := by decide +kernel
theorem noFlush_out7 : ∀ t : Fin cfg0.N, ¬condLast (grid0.coords t) → (cfg0.win 7).flush t = false := by decide +kernel
theorem noFlush_out8 : ∀ t : Fin cfg0.N, ¬condLast (grid0.coords t) → (cfg0.win 8).flush t = false := by decide +kernel
/-- At the last contraction step they are live. -/
theorem live_out7 : ∀ t : Fin cfg0.N, condLast (grid0.coords t) → cfg0.idle 7 (grid0.coords t) = false := by decide +kernel
theorem live_out8 : ∀ t : Fin cfg0.N, condLast (grid0.coords t) → cfg0.idle 8 (grid0.coords t) = false := by decide +kernel

/-! ## The memrefs the body is called with -/

/-- One staging buffer of each result window, through which its contents are stated. -/
abbrev VO7 : View sig .tc .vmem S1024x1024 .f32 := (Memref.whole cc0_stg7_0 : Memref sig .tc .vmem S1024x1024 .f32).view
abbrev VO8 : View sig .tc .vmem S1024x1024 .f32 := (Memref.whole cc0_stg8_0 : Memref sig .tc .vmem S1024x1024 .f32).view
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1024 .f32 := win0_8.stage (cfg0.slots t 8)
abbrev hs8 (t : Fin cfg0.N) : (ms8 t).IsWhole := hstage0_8 ((cfg0.slots t 8).cast nbuf0_8)
/-- The accumulator: a whole scoped buffer of the kernel's own. -/
abbrev scM : Memref sig .tc .vmem S1024x1024 .f32 := Memref.whole cc0_scratch0
abbrev VS : View sig .tc .vmem S1024x1024 .f32 := scM.view

/-- What the launch hands the region besides the windows: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KW.RunFirst.lean ====
/-
  The body at a FIRST contraction step (k = 0), run once on arbitrary whole staging memrefs: it reads the four
  operand tiles and overwrites the accumulator with the sum of the two partial products.  The two result
  buffers are not touched and are handed back as found.  What the accumulator ends with is the list of
  pieces the run finds.
-/
import proofs.«142987_j23811298689968_2_alg».proof.Proof.KW.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)
    (hc0 : condFirst i) (hc1 : ¬condLater i) (hc2 : ¬condLast i) (x0 x1 x2 x3 : Vec F S1024x512 .bf16) (x4 x5 : Vec F S1x1024 .f32) (x6 : Vec F S1024x1024 .f32) :
    Σ' (L7 : List (View.Piece (Elt F) S1024x1024 .f32)) (L8 : List (View.Piece (Elt F) S1024x1024 .f32)), { LS : List (View.Piece (Elt F) S1024x1024 .f32) //
      ∀ (xi7 xi8 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12) K } := by
  refine ⟨[], [], ?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.Kernel.Body

end
-- ==== Proof.KW.RunMid.lean ====
/-
  The body at a MIDDLE contraction step (0 < k < 7), run once on arbitrary whole staging memrefs: it reads the
  four operand tiles and the accumulator, and stores back the accumulator plus the two partial products.  The
  two result buffers are handed back as found.
-/
import proofs.«142987_j23811298689968_2_alg».proof.Proof.KW.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)
    (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) :
    Σ' (L7 : List (View.Piece (Elt F) S1024x1024 .f32)) (L8 : List (View.Piece (Elt F) S1024x1024 .f32)), { LS : List (View.Piece (Elt F) S1024x1024 .f32) //
      ∀ (xi7 xi8 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12) K } := by
  refine ⟨[], [], ?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.Kernel.Body

end
-- ==== Proof.KW.RunLast.lean ====
/-
  The body at the LAST contraction step (k = 7), run once on arbitrary whole staging memrefs: it adds the last
  two partial products into the accumulator and then finishes the tile, eight bands of 128 rows at a time —
  each band of the accumulator plus the two bias rows goes through the gate nonlinearities together with the
  same band of the cell tile, and the two results are stored into the same band of the two result buffers.
  What the accumulator and the two result buffers end with are the lists of pieces the run finds.
-/
import proofs.«142987_j23811298689968_2_alg».proof.Proof.KW.RunMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)
    (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) :
    Σ' (L7 : List (View.Piece (Elt F) S1024x1024 .f32)) (L8 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__lstm_kernel_eq_skeleton]; unfold cc0__lstm_kernel_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfs
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    iexists _; iexact HS

end Cert.Kernel.Body

end
-- ==== Proof.KW.Frame.lean ====
/-
  The frame of the tiled gate kernel: what the accumulator and the two result buffers hold after every grid
  point, the proof data of the pipeline, the body's triple at every point, and the run.

  Point t is contraction step k = t mod 8 of its output tile.  After a first step the accumulator holds the
  pieces the first-step run stores; after a middle step those of the middle-step run over what the point
  before left; after the last step likewise, and the two result buffers hold the pieces the last-step run
  stores.  Between points the accumulator is carried in the region's invariant at exactly these contents.
-/
import proofs.«142987_j23811298689968_2_alg».proof.Proof.KW.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A result buffer's contents at a point where nothing is stored into it: a placeholder nothing consults. -/
def idleOut : Vec F S1024x1024 .f32 := VO7.read (Elt F) VO7.junk

/-- The first-step run's one store covers the accumulator. -/
theorem coverFirst (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : condFirst i) (hc1 : ¬condLater i) (hc2 : ¬condLast i) (x0 x1 x2 x3 : Vec F S1024x512 .bf16) (x4 x5 : Vec F S1x1024 .f32) (x6 : Vec F S1024x1024 .f32) (y : S1024x1024.Idx) :
    ∃ pc ∈ (runFirst c i arg3 harg3 arg4 harg4 arg5 harg5 arg6 harg6 arg7 harg7 arg8 harg8 arg9 harg9 arg10 harg10 arg11 harg11 arg12 harg12 hc0 hc1 hc2 x0 x1 x2 x3 x4 x5 x6).2.2.1, y ∈ pc.1.set :=
  View.cover_of_tiledL (runFirst c i arg3 harg3 arg4 harg4 arg5 harg5 arg6 harg6 arg7 harg7 arg8 harg8 arg9 harg9 arg10 harg10 arg11 harg11 arg12 harg12 hc0 hc1 hc2 x0 x1 x2 x3 x4 x5 x6).2.2.1 S1024x1024.size (by sl_kernel_rfl) y
/-- What a first step leaves in the accumulator. -/
def accFirst (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : condFirst i) (hc1 : ¬condLater i) (hc2 : ¬condLast i) (x0 x1 x2 x3 : Vec F S1024x512 .bf16) (x4 x5 : Vec F S1x1024 .f32) (x6 : Vec F S1024x1024 .f32) : Vec F S1024x1024 .f32 :=
  VS.read (Elt F) (VS.writes (Elt F) VS.junk (runFirst c i arg3 harg3 arg4 harg4 arg5 harg5 arg6 harg6 arg7 harg7 arg8 harg8 arg9 harg9 arg10 harg10 arg11 harg11 arg12 harg12 hc0 hc1 hc2 x0 x1 x2 x3 x4 x5 x6).2.2.1)

/-- The middle-step run's one store covers the accumulator. -/
theorem coverMid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) (y : S1024x1024.Idx) :
    ∃ pc ∈ (runMid c i arg3 harg3 arg4 harg4 arg5 harg5 arg6 harg6 arg7 harg7 arg8 harg8 arg9 harg9 arg10 harg10 arg11 harg11 arg12 harg12 hc0 hc1 hc2 x0 x1 x2 x3 x4 x5 x6 xs).2.2.1, y ∈ pc.1.set :=
  View.cover_of_tiledL (runMid c i arg3 harg3 arg4 harg4 arg5 harg5 arg6 harg6 arg7 harg7 arg8 harg8 arg9 harg9 arg10 harg10 arg11 harg11 arg12 harg12 hc0 hc1 hc2 x0 x1 x2 x3 x4 x5 x6 xs).2.2.1 S1024x1024.size (by sl_kernel_rfl) y
/-- What a middle step leaves in the accumulator, over what the point before left. -/
def accMid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) : Vec F S1024x1024 .f32 :=
  VS.read (Elt F) (VS.writes (Elt F) VS.junk (runMid c i arg3 harg3 arg4 harg4 arg5 harg5 arg6 harg6 arg7 harg7 arg8 harg8 arg9 harg9 arg10 harg10 arg11 harg11 arg12 harg12 hc0 hc1 hc2 x0 x1 x2 x3 x4 x5 x6 xs).2.2.1)

/-- The last-step run's store covers the accumulator, and its eight band stores tile each result buffer. -/
theorem coverLastAcc (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) (y : S1024x1024.Idx) :
    ∃ pc ∈ (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1, y ∈ pc.1.set :=
  View.cover_of_tiledL (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1 S1024x1024.size (by sl_kernel_rfl) y
theorem coverLastHid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) (y : S1024x1024.Idx) :
    ∃ pc ∈ (runLast c i arg3 harg3 arg4 harg4 arg5 harg5 arg6 harg6 arg7 harg7 arg8 harg8 arg9 harg9 arg10 harg10 arg11 harg11 arg12 harg12 hc0 hc1 hc2 x0 x1 x2 x3 x4 x5 x6 xs).1, y ∈ pc.1.set :=
  View.cover_of_tiledL (runLast c i arg3 harg3 arg4 harg4 arg5 harg5 arg6 harg6 arg7 harg7 arg8 harg8 arg9 harg9 arg10 harg10 arg11 harg11 arg12 harg12 hc0 hc1 hc2 x0 x1 x2 x3 x4 x5 x6 xs).1 S128x1024.size (by sl_kernel_rfl) y
theorem coverLastCell (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) (y : S1024x1024.Idx) :
    ∃ pc ∈ (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1, y ∈ pc.1.set :=
  View.cover_of_tiledL (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1 S128x1024.size (by sl_kernel_rfl) y
/-- What the last step leaves in the accumulator and in the two result buffers. -/
def accLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) : Vec F S1024x1024 .f32 :=
  VS.read (Elt F) (VS.writes (Elt F) VS.junk (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1)
def hidLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) : Vec F S1024x1024 .f32 :=
  VO7.read (Elt F) (VO7.writes (Elt F) VO7.junk (runLast c i arg3 harg3 arg4 harg4 arg5 harg5 arg6 harg6 arg7 harg7 arg8 harg8 arg9 harg9 arg10 harg10 arg11 harg11 arg12 harg12 hc0 hc1 hc2 x0 x1 x2 x3 x4 x5 x6 xs).1)
def cellLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) : Vec F S1024x1024 .f32 :=
  VO8.read (Elt F) (VO8.writes (Elt F) VO8.junk (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1)

/-! ## What the buffers hold after each point -/

/-- The closed forms turned into the case hypotheses of a point. -/
theorem later_of {t : Fin cfg0.N} (h0 : ¬t.val % 8 = 0) : condLater (grid0.coords t) := (condLater_iff t).mpr h0
theorem notLater_of {t : Fin cfg0.N} (h0 : t.val % 8 = 0) : ¬condLater (grid0.coords t) := fun h => (condLater_iff t).mp h h0
theorem notFirst_of {t : Fin cfg0.N} (h0 : ¬t.val % 8 = 0) : ¬condFirst (grid0.coords t) := fun h => h0 ((condFirst_iff t).mp h)
theorem notLast_of {t : Fin cfg0.N} (h7 : ¬t.val % 8 = 7) : ¬condLast (grid0.coords t) := fun h => h7 ((condLast_iff t).mp h)
theorem notLast_of_first {t : Fin cfg0.N} (h0 : t.val % 8 = 0) : ¬condLast (grid0.coords t) := fun h => by have := (condLast_iff t).mp h; omega

/-- After point number n: (hidden-state buffer, cell buffer, accumulator). -/
def outsAt (c : Dev nD) : (n : ℕ) → n < cfg0.N → Vec F S1024x1024 .f32 × Vec F S1024x1024 .f32 × Vec F S1024x1024 .f32
  | 0, hn => (idleOut, idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((condFirst_iff ⟨0, hn⟩).mpr (Nat.zero_mod _)) (notLater_of (t := ⟨0, hn⟩) (Nat.zero_mod _)) (notLast_of_first (t := ⟨0, hn⟩) (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (idleOut, idleOut, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((condFirst_iff ⟨n + 1, hn⟩).mpr h0) (notLater_of (t := ⟨n + 1, hn⟩) h0) (notLast_of_first (t := ⟨n + 1, hn⟩) h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else if h7 : (n + 1) % 8 = 7 then
      (hidLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) ((condLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2,
       cellLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) ((condLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) ((condLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2)
    else
      (idleOut, idleOut, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) (notLast_of (t := ⟨n + 1, hn⟩) h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2)

theorem outsAt_first (c : Dev nD) (t : Fin cfg0.N) (h0 : t.val % 8 = 0) :
    outsAt m c t.val t.isLt = (idleOut, idleOut, accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((condFirst_iff t).mpr h0) (notLater_of h0) (notLast_of_first h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt_mid (c : Dev nD) (t : Fin cfg0.N) (h0 : ¬t.val % 8 = 0) (h7 : ¬t.val % 8 = 7) :
    outsAt m c t.val t.isLt = (idleOut, idleOut, accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) (notLast_of h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt m c t.val t.isLt = (hidLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2,
       cellLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2,
       accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-! ## The region's invariant -/

/-- Before point n: at the start whatever the launch hands over; afterwards the accumulator at what the point
    before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]
theorem after8 (c : Dev nD) (t : Fin cfg0.N) : (dats m 0 c).after 8 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t)
    ∧ (dats m 0 c).leavesExact 5 t = owns (c : Thread nD τ) (ms5 t) fullShare (iblk m c 5 t)
    ∧ (dats m 0 c).leavesExact 6 t = owns (c : Thread nD τ) (ms6 t) fullShare (iblk m c 6 t) := by
  refine ⟨?_, ?_, ?_, ?_, ?_, ?_, ?_⟩
  · unfold Dat.leavesExact; rw [live_in0 t, after0]
  · unfold Dat.leavesExact; rw [live_in1 t, after1]
  · unfold Dat.leavesExact; rw [live_in2 t, after2]
  · unfold Dat.leavesExact; rw [live_in3 t, after3]
  · unfold Dat.leavesExact; rw [live_in4 t, after4]
  · unfold Dat.leavesExact; rw [live_in5 t, after5]
  · unfold Dat.leavesExact; rw [live_in6 t, after6]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  obtain ⟨e0, e1, e2, e3, e4, e5, e6⟩ := leaves_in m c t
  rw [e0, e1, e2, e3, e4, e5, e6]
  by_cases h0 : t.val % 8 = 0
  · have h7 : ¬t.val % 8 = 7 := by omega
    rw [Dat.leavesExact_idle (dats m 0 c) 7 t (idle_out7 t (notLast_of h7)) (noFlush_out7 t (notLast_of h7))]
    rw [Dat.leavesExact_idle (dats m 0 c) 8 t (idle_out8 t (notLast_of h7)) (noFlush_out8 t (notLast_of h7))]
    rw [outsAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ ((condFirst_iff t).mpr h0) (notLater_of h0) (notLast_of_first h0) (iblk m c 0 t) (iblk m c 1 t) (iblk m c 2 t) (iblk m c 3 t) (iblk m c 4 t) (iblk m c 5 t) (iblk m c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ ((condFirst_iff t).mpr h0) (notLater_of h0) (notLast_of_first h0) (iblk m c 0 t) (iblk m c 1 t) (iblk m c 2 t) (iblk m c 3 t) (iblk m c 4 t) (iblk m c 5 t) (iblk m c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h7 : t.val % 8 = 7
    · rw [show (dats m 0 c).leavesExact 7 t = owns (c : Thread nD τ) (ms7 t) fullShare ((dats m 0 c).after 7 t) from by
        unfold Dat.leavesExact; rw [live_out7 t ((condLast_iff t).mpr h7)], after7]
      rw [show (dats m 0 c).leavesExact 8 t = owns (c : Thread nD τ) (ms8 t) fullShare ((dats m 0 c).after 8 t) from by
        unfold Dat.leavesExact; rw [live_out8 t ((condLast_iff t).mpr h7)], after8]
      rw [outsAt_last m c t h0 h7]
      unfold hidLast cellLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ (notFirst_of h0) (later_of h0) ((condLast_iff t).mpr h7) (iblk m c 0 t) (iblk m c 1 t) (iblk m c 2 t) (iblk m c 3 t) (iblk m c 4 t) (iblk m c 5 t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLastHid c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLastCell c _ _ _ _ _ _ _ _ _ _ _ _ _ _ _ _ _ _ _ _ _ _ _ _ _ _ _ _ _ _ _ _)
    · rw [Dat.leavesExact_idle (dats m 0 c) 7 t (idle_out7 t (notLast_of h7)) (noFlush_out7 t (notLast_of h7))]
      rw [Dat.leavesExact_idle (dats m 0 c) 8 t (idle_out8 t (notLast_of h7)) (noFlush_out8 t (notLast_of h7))]
      rw [outsAt_mid m c t h0 h7]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid0.coords t) _ _ _ _ _ _ _ _ _ _ _ _ _ _ _ _ _ _ _ _ (notFirst_of h0) (later_of h0) (notLast_of h7) (iblk m c 0 t) (iblk m c 1 t) (iblk m c 2 t) (iblk m c 3 t) (iblk m c 4 t) (iblk m c 5 t) (iblk m c 6 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and in every final state each array of the pipeline
    is what the library computes from the proof data and every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  frame_of m ρ (dats m) (A_eq m) (run_main m ρ)

end Cert.Kernel.Body

end
-- ==== Proof.KI.Cases.lean ====
/-
  The three situations a grid point of the gate kernel can be in, and what is common to the three runs.

  The grid is (row tile i, column tile j, contraction step k) with k innermost, so point number t has
  k = t mod 8.  The body accumulates the two partial products of step k into a scratch tile: it OVERWRITES
  the scratch when k = 0, ADDS to it when k > 0, and when k = 7 also finishes the tile (adds the two
  biases, applies the gate nonlinearities, stores the two result tiles).  The three branch conditions are
  decided here over the whole grid in closed form, together with where the two result windows are idle.
-/
import proofs.«142987_j23811298689968_2_alg».proof.Proof.Gen.KernelIdeal.Frame
import proofs.«142987_j23811298689968_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The body's first branch: the contraction step is the first one. -/
abbrev condFirst (i : grid0.Coords) : Prop :=
  (Scalar.cmpi .ne (Scalar.extui (Scalar.cmpi .eq (BitVec.ofNat 32 (i 2).val) 0#32)) 0#32) = 1#1
theorem condFirst_iff : ∀ t : Fin cfg0.N, condFirst (grid0.coords t) ↔ t.val % 8 = 0 :=
  (by decide +kernel : ∀ t : Fin grid0.N, condFirst (grid0.coords t) ↔ t.val % 8 = 0)

/-- The body's second branch: the contraction step is a later one. -/
abbrev condLater (i : grid0.Coords) : Prop :=
  (Scalar.cmpi .ne (Scalar.extui (Scalar.cmpi .sgt (BitVec.ofNat 32 (i 2).val) 0#32)) 0#32) = 1#1
theorem condLater_iff : ∀ t : Fin cfg0.N, condLater (grid0.coords t) ↔ ¬ t.val % 8 = 0 :=
  (by decide +kernel : ∀ t : Fin grid0.N, condLater (grid0.coords t) ↔ ¬ t.val % 8 = 0)

/-- The body's third branch: the contraction step is the last one. -/
abbrev condLast (i : grid0.Coords) : Prop := k0_cond3 i = 1#1
theorem condLast_iff : ∀ t : Fin cfg0.N, condLast (grid0.coords t) ↔ t.val % 8 = 7 :=
  (by decide +kernel : ∀ t : Fin grid0.N, condLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
theorem live_in5 : ∀ t : Fin cfg0.N, cfg0.idle 5 (grid0.coords t) = false := by decide +kernel
theorem live_in6 : ∀ t : Fin cfg0.N, cfg0.idle 6 (grid0.coords t) = false := by decide +kernel
/-- Away from the last contraction step the two result windows are idle and not written back. -/
theorem idle_out7 : ∀ t : Fin cfg0.N, ¬condLast (grid0.coords t) → cfg0.idle 7 (grid0.coords t) = true := by decide +kernel
theorem idle_out8 : ∀ t : Fin cfg0.N, ¬condLast (grid0.coords t) → cfg0.idle 8 (grid0.coords t) = true := by decide +kernel
theorem noFlush_out7 : ∀ t : Fin cfg0.N, ¬condLast (grid0.coords t) → (cfg0.win 7).flush t = false := by decide +kernel
theorem noFlush_out8 : ∀ t : Fin cfg0.N, ¬condLast (grid0.coords t) → (cfg0.win 8).flush t = false := by decide +kernel
/-- At the last contraction step they are live. -/
theorem live_out7 : ∀ t : Fin cfg0.N, condLast (grid0.coords t) → cfg0.idle 7 (grid0.coords t) = false := by decide +kernel
theorem live_out8 : ∀ t : Fin cfg0.N, condLast (grid0.coords t) → cfg0.idle 8 (grid0.coords t) = false := by decide +kernel

/-! ## The memrefs the body is called with -/

/-- One staging buffer of each result window, through which its contents are stated. -/
abbrev VO7 : View sig .tc .vmem S1024x1024 .f32 := (Memref.whole cc0_stg7_0 : Memref sig .tc .vmem S1024x1024 .f32).view
abbrev VO8 : View sig .tc .vmem S1024x1024 .f32 := (Memref.whole cc0_stg8_0 : Memref sig .tc .vmem S1024x1024 .f32).view
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1024 .f32 := win0_8.stage (cfg0.slots t 8)
abbrev hs8 (t : Fin cfg0.N) : (ms8 t).IsWhole := hstage0_8 ((cfg0.slots t 8).cast nbuf0_8)
/-- The accumulator: a whole scoped buffer of the kernel's own. -/
abbrev scM : Memref sig .tc .vmem S1024x1024 .f32 := Memref.whole cc0_scratch0
abbrev VS : View sig .tc .vmem S1024x1024 .f32 := scM.view

/-- What the launch hands the region besides the windows: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KI.RunFirst.lean ====
/-
  The body at a FIRST contraction step (k = 0), run once on arbitrary whole staging memrefs: it reads the four
  operand tiles and overwrites the accumulator with the sum of the two partial products.  The two result
  buffers are not touched and are handed back as found.  What the accumulator ends with is the list of
  pieces the run finds.
-/
import proofs.«142987_j23811298689968_2_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)
    (hc0 : condFirst i) (hc1 : ¬condLater i) (hc2 : ¬condLast i) (x0 x1 x2 x3 : Vec F S1024x512 .bf16) (x4 x5 : Vec F S1x1024 .f32) (x6 : Vec F S1024x1024 .f32) :
    Σ' (L7 : List (View.Piece (Elt F) S1024x1024 .f32)) (L8 : List (View.Piece (Elt F) S1024x1024 .f32)), { LS : List (View.Piece (Elt F) S1024x1024 .f32) //
      ∀ (xi7 xi8 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12) K } := by
  refine ⟨[], [], ?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.KernelIdeal.Body

end
-- ==== Proof.KI.RunMid.lean ====
/-
  The body at a MIDDLE contraction step (0 < k < 7), run once on arbitrary whole staging memrefs: it reads the
  four operand tiles and the accumulator, and stores back the accumulator plus the two partial products.  The
  two result buffers are handed back as found.
-/
import proofs.«142987_j23811298689968_2_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)
    (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) :
    Σ' (L7 : List (View.Piece (Elt F) S1024x1024 .f32)) (L8 : List (View.Piece (Elt F) S1024x1024 .f32)), { LS : List (View.Piece (Elt F) S1024x1024 .f32) //
      ∀ (xi7 xi8 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xi8 ∗ (∃ f, arg12.view.loc (c : Thread nD τ) ↦[arg12.view.set]{fullShare} arg12.view.writes (Elt F) f LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12) K } := by
  refine ⟨[], [], ?_, fun xi7 xi8 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact HS

end Cert.KernelIdeal.Body

end
-- ==== Proof.KI.RunLast.lean ====
/-
  The body at the LAST contraction step (k = 7), run once on arbitrary whole staging memrefs: it adds the last
  two partial products into the accumulator and then finishes the tile, eight bands of 128 rows at a time —
  each band of the accumulator plus the two bias rows goes through the gate nonlinearities together with the
  same band of the cell tile, and the two results are stored into the same band of the two result buffers.
  What the accumulator and the two result buffers end with are the lists of pieces the run finds.
-/
import proofs.«142987_j23811298689968_2_alg».proof.Proof.KI.RunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole)
    (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) :
    Σ' (L7 : List (View.Piece (Elt F) S1024x1024 .f32)) (L8 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__lstm_kernel_eq_skeleton]; unfold cc0__lstm_kernel_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfs
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    iexists _; iexact HS

end Cert.KernelIdeal.Body

end
-- ==== Proof.KI.Frame.lean ====
/-
  The frame of the tiled gate kernel: what the accumulator and the two result buffers hold after every grid
  point, the proof data of the pipeline, the body's triple at every point, and the run.

  Point t is contraction step k = t mod 8 of its output tile.  After a first step the accumulator holds the
  pieces the first-step run stores; after a middle step those of the middle-step run over what the point
  before left; after the last step likewise, and the two result buffers hold the pieces the last-step run
  stores.  Between points the accumulator is carried in the region's invariant at exactly these contents.
-/
import proofs.«142987_j23811298689968_2_alg».proof.Proof.KI.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A result buffer's contents at a point where nothing is stored into it: a placeholder nothing consults. -/
def idleOut : Vec F S1024x1024 .f32 := VO7.read (Elt F) VO7.junk

/-- The first-step run's one store covers the accumulator. -/
theorem coverFirst (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : condFirst i) (hc1 : ¬condLater i) (hc2 : ¬condLast i) (x0 x1 x2 x3 : Vec F S1024x512 .bf16) (x4 x5 : Vec F S1x1024 .f32) (x6 : Vec F S1024x1024 .f32) (y : S1024x1024.Idx) :
    ∃ pc ∈ (runFirst c i arg3 harg3 arg4 harg4 arg5 harg5 arg6 harg6 arg7 harg7 arg8 harg8 arg9 harg9 arg10 harg10 arg11 harg11 arg12 harg12 hc0 hc1 hc2 x0 x1 x2 x3 x4 x5 x6).2.2.1, y ∈ pc.1.set :=
  View.cover_of_tiledL (runFirst c i arg3 harg3 arg4 harg4 arg5 harg5 arg6 harg6 arg7 harg7 arg8 harg8 arg9 harg9 arg10 harg10 arg11 harg11 arg12 harg12 hc0 hc1 hc2 x0 x1 x2 x3 x4 x5 x6).2.2.1 S1024x1024.size (by sl_kernel_rfl) y
/-- What a first step leaves in the accumulator. -/
def accFirst (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : condFirst i) (hc1 : ¬condLater i) (hc2 : ¬condLast i) (x0 x1 x2 x3 : Vec F S1024x512 .bf16) (x4 x5 : Vec F S1x1024 .f32) (x6 : Vec F S1024x1024 .f32) : Vec F S1024x1024 .f32 :=
  VS.read (Elt F) (VS.writes (Elt F) VS.junk (runFirst c i arg3 harg3 arg4 harg4 arg5 harg5 arg6 harg6 arg7 harg7 arg8 harg8 arg9 harg9 arg10 harg10 arg11 harg11 arg12 harg12 hc0 hc1 hc2 x0 x1 x2 x3 x4 x5 x6).2.2.1)

/-- The middle-step run's one store covers the accumulator. -/
theorem coverMid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) (y : S1024x1024.Idx) :
    ∃ pc ∈ (runMid c i arg3 harg3 arg4 harg4 arg5 harg5 arg6 harg6 arg7 harg7 arg8 harg8 arg9 harg9 arg10 harg10 arg11 harg11 arg12 harg12 hc0 hc1 hc2 x0 x1 x2 x3 x4 x5 x6 xs).2.2.1, y ∈ pc.1.set :=
  View.cover_of_tiledL (runMid c i arg3 harg3 arg4 harg4 arg5 harg5 arg6 harg6 arg7 harg7 arg8 harg8 arg9 harg9 arg10 harg10 arg11 harg11 arg12 harg12 hc0 hc1 hc2 x0 x1 x2 x3 x4 x5 x6 xs).2.2.1 S1024x1024.size (by sl_kernel_rfl) y
/-- What a middle step leaves in the accumulator, over what the point before left. -/
def accMid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) : Vec F S1024x1024 .f32 :=
  VS.read (Elt F) (VS.writes (Elt F) VS.junk (runMid c i arg3 harg3 arg4 harg4 arg5 harg5 arg6 harg6 arg7 harg7 arg8 harg8 arg9 harg9 arg10 harg10 arg11 harg11 arg12 harg12 hc0 hc1 hc2 x0 x1 x2 x3 x4 x5 x6 xs).2.2.1)

/-- The last-step run's store covers the accumulator, and its eight band stores tile each result buffer. -/
theorem coverLastAcc (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) (y : S1024x1024.Idx) :
    ∃ pc ∈ (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1, y ∈ pc.1.set :=
  View.cover_of_tiledL (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1 S1024x1024.size (by sl_kernel_rfl) y
theorem coverLastHid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) (y : S1024x1024.Idx) :
    ∃ pc ∈ (runLast c i arg3 harg3 arg4 harg4 arg5 harg5 arg6 harg6 arg7 harg7 arg8 harg8 arg9 harg9 arg10 harg10 arg11 harg11 arg12 harg12 hc0 hc1 hc2 x0 x1 x2 x3 x4 x5 x6 xs).1, y ∈ pc.1.set :=
  View.cover_of_tiledL (runLast c i arg3 harg3 arg4 harg4 arg5 harg5 arg6 harg6 arg7 harg7 arg8 harg8 arg9 harg9 arg10 harg10 arg11 harg11 arg12 harg12 hc0 hc1 hc2 x0 x1 x2 x3 x4 x5 x6 xs).1 S128x1024.size (by sl_kernel_rfl) y
theorem coverLastCell (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) (y : S1024x1024.Idx) :
    ∃ pc ∈ (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1, y ∈ pc.1.set :=
  View.cover_of_tiledL (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1 S128x1024.size (by sl_kernel_rfl) y
/-- What the last step leaves in the accumulator and in the two result buffers. -/
def accLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) : Vec F S1024x1024 .f32 :=
  VS.read (Elt F) (VS.writes (Elt F) VS.junk (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1)
def hidLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) : Vec F S1024x1024 .f32 :=
  VO7.read (Elt F) (VO7.writes (Elt F) VO7.junk (runLast c i arg3 harg3 arg4 harg4 arg5 harg5 arg6 harg6 arg7 harg7 arg8 harg8 arg9 harg9 arg10 harg10 arg11 harg11 arg12 harg12 hc0 hc1 hc2 x0 x1 x2 x3 x4 x5 x6 xs).1)
def cellLast (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) : Vec F S1024x1024 .f32 :=
  VO8.read (Elt F) (VO8.writes (Elt F) VO8.junk (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1)

/-! ## What the buffers hold after each point -/

/-- The closed forms turned into the case hypotheses of a point. -/
theorem later_of {t : Fin cfg0.N} (h0 : ¬t.val % 8 = 0) : condLater (grid0.coords t) := (condLater_iff t).mpr h0
theorem notLater_of {t : Fin cfg0.N} (h0 : t.val % 8 = 0) : ¬condLater (grid0.coords t) := fun h => (condLater_iff t).mp h h0
theorem notFirst_of {t : Fin cfg0.N} (h0 : ¬t.val % 8 = 0) : ¬condFirst (grid0.coords t) := fun h => h0 ((condFirst_iff t).mp h)
theorem notLast_of {t : Fin cfg0.N} (h7 : ¬t.val % 8 = 7) : ¬condLast (grid0.coords t) := fun h => h7 ((condLast_iff t).mp h)
theorem notLast_of_first {t : Fin cfg0.N} (h0 : t.val % 8 = 0) : ¬condLast (grid0.coords t) := fun h => by have := (condLast_iff t).mp h; omega

/-- After point number n: (hidden-state buffer, cell buffer, accumulator). -/
def outsAt (c : Dev nD) : (n : ℕ) → n < cfg0.N → Vec F S1024x1024 .f32 × Vec F S1024x1024 .f32 × Vec F S1024x1024 .f32
  | 0, hn => (idleOut, idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((condFirst_iff ⟨0, hn⟩).mpr (Nat.zero_mod _)) (notLater_of (t := ⟨0, hn⟩) (Nat.zero_mod _)) (notLast_of_first (t := ⟨0, hn⟩) (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      (idleOut, idleOut, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) ((condFirst_iff ⟨n + 1, hn⟩).mpr h0) (notLater_of (t := ⟨n + 1, hn⟩) h0) (notLast_of_first (t := ⟨n + 1, hn⟩) h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else if h7 : (n + 1) % 8 = 7 then
      (hidLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) ((condLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2,
       cellLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) ((condLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) ((condLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2)
    else
      (idleOut, idleOut, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (notFirst_of (t := ⟨n + 1, hn⟩) h0) (later_of (t := ⟨n + 1, hn⟩) h0) (notLast_of (t := ⟨n + 1, hn⟩) h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2.2)

theorem outsAt_first (c : Dev nD) (t : Fin cfg0.N) (h0 : t.val % 8 = 0) :
    outsAt m c t.val t.isLt = (idleOut, idleOut, accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((condFirst_iff t).mpr h0) (notLater_of h0) (notLast_of_first h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

theorem outsAt_mid (c : Dev nD) (t : Fin cfg0.N) (h0 : ¬t.val % 8 = 0) (h7 : ¬t.val % 8 = 7) :
    outsAt m c t.val t.isLt = (idleOut, idleOut, accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) (notLast_of h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt m c t.val t.isLt = (hidLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2,
       cellLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2,
       accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-! ## The region's invariant -/

/-- Before point n: at the start whatever the launch hands over; afterwards the accumulator at what the point
    before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]
theorem after8 (c : Dev nD) (t : Fin cfg0.N) : (dats m 0 c).after 8 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t)
    ∧ (dats m 0 c).leavesExact 5 t = owns (c : Thread nD τ) (ms5 t) fullShare (iblk m c 5 t)
    ∧ (dats m 0 c).leavesExact 6 t = owns (c : Thread nD τ) (ms6 t) fullShare (iblk m c 6 t) := by
  refine ⟨?_, ?_, ?_, ?_, ?_, ?_, ?_⟩
  · unfold Dat.leavesExact; rw [live_in0 t, after0]
  · unfold Dat.leavesExact; rw [live_in1 t, after1]
  · unfold Dat.leavesExact; rw [live_in2 t, after2]
  · unfold Dat.leavesExact; rw [live_in3 t, after3]
  · unfold Dat.leavesExact; rw [live_in4 t, after4]
  · unfold Dat.leavesExact; rw [live_in5 t, after5]
  · unfold Dat.leavesExact; rw [live_in6 t, after6]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  obtain ⟨e0, e1, e2, e3, e4, e5, e6⟩ := leaves_in m c t
  rw [e0, e1, e2, e3, e4, e5, e6]
  by_cases h0 : t.val % 8 = 0
  · have h7 : ¬t.val % 8 = 7 := by omega
    rw [Dat.leavesExact_idle (dats m 0 c) 7 t (idle_out7 t (notLast_of h7)) (noFlush_out7 t (notLast_of h7))]
    rw [Dat.leavesExact_idle (dats m 0 c) 8 t (idle_out8 t (notLast_of h7)) (noFlush_out8 t (notLast_of h7))]
    rw [outsAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ ((condFirst_iff t).mpr h0) (notLater_of h0) (notLast_of_first h0) (iblk m c 0 t) (iblk m c 1 t) (iblk m c 2 t) (iblk m c 3 t) (iblk m c 4 t) (iblk m c 5 t) (iblk m c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid0.coords t) _ _ _ _ _ _ _ _ _ _ _ _ _ _ _ _ _ _ _ _ ((condFirst_iff t).mpr h0) (notLater_of h0) (notLast_of_first h0) (iblk m c 0 t) (iblk m c 1 t) (iblk m c 2 t) (iblk m c 3 t) (iblk m c 4 t) (iblk m c 5 t) (iblk m c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h7 : t.val % 8 = 7
    · rw [show (dats m 0 c).leavesExact 7 t = owns (c : Thread nD τ) (ms7 t) fullShare ((dats m 0 c).after 7 t) from by
        unfold Dat.leavesExact; rw [live_out7 t ((condLast_iff t).mpr h7)], after7]
      rw [show (dats m 0 c).leavesExact 8 t = owns (c : Thread nD τ) (ms8 t) fullShare ((dats m 0 c).after 8 t) from by
        unfold Dat.leavesExact; rw [live_out8 t ((condLast_iff t).mpr h7)], after8]
      rw [outsAt_last m c t h0 h7]
      unfold hidLast cellLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid0.coords t) _ _ _ _ _ _ _ _ _ _ _ _ _ _ _ _ _ _ _ _ (notFirst_of h0) (later_of h0) ((condLast_iff t).mpr h7) (iblk m c 0 t) (iblk m c 1 t) (iblk m c 2 t) (iblk m c 3 t) (iblk m c 4 t) (iblk m c 5 t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLastHid c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLastCell c _ _ _ _ _ _ _ _ _ _ _ _ _ _ _ _ _ _ _ _ _ _ _ _ _ _ _ _ _ _ _ _)
    · rw [Dat.leavesExact_idle (dats m 0 c) 7 t (idle_out7 t (notLast_of h7)) (noFlush_out7 t (notLast_of h7))]
      rw [Dat.leavesExact_idle (dats m 0 c) 8 t (idle_out8 t (notLast_of h7)) (noFlush_out8 t (notLast_of h7))]
      rw [outsAt_mid m c t h0 h7]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid0.coords t) _ _ _ _ _ _ _ _ _ _ _ _ _ _ _ _ _ _ _ _ (notFirst_of h0) (later_of h0) (notLast_of h7) (iblk m c 0 t) (iblk m c 1 t) (iblk m c 2 t) (iblk m c 3 t) (iblk m c 4 t) (iblk m c 5 t) (iblk m c 6 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, and in every final state each array of the pipeline
    is what the library computes from the proof data and every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The program runs and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  frame_of m ρ (dats m) (A_eq m) (run_main m ρ)

end Cert.KernelIdeal.Body

end
-- ==== Proof.KI.Pieces.lean ====
/-
  What the three runs' stores leave in the accumulator, as plain terms of the tiles read.

  Each run stores the accumulator once, whole; the stored value is the sum of the two partial products of the
  step (first step), or that sum added to what the accumulator held (later steps).  The whole-tile loads read
  back the tiles the body was handed.
-/
import proofs.«142987_j23811298689968_2_alg».proof.Proof.KI.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOffsets : (![0, 0] : Fin 2 → ℕ) = fun _ => 0 := by funext a; fin_cases a <;> rfl

/-- After a first step the accumulator is the sum of the step's two partial products. -/
theorem accFirst_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : condFirst i) (hc1 : ¬condLater i) (hc2 : ¬condLast i) (x0 x1 x2 x3 : Vec F S1024x512 .bf16) (x4 x5 : Vec F S1x1024 .f32) (x6 : Vec F S1024x1024 .f32) :
    accFirst c i arg3 harg3 arg4 harg4 arg5 harg5 arg6 harg6 arg7 harg7 arg8 harg8 arg9 harg9 arg10 harg10 arg11 harg11 arg12 harg12 hc0 hc1 hc2 x0 x1 x2 x3 x4 x5 x6 = k0_pay3 x0 x2 x1 x3 := by
  unfold accFirst
  rw [View.read_writes_junk_eq_canon]
  unfold runFirst
  dsimp only
  refine (View.canon_unit_zero (S := S1024x1024) zeroOffsets _ _).trans ?_
  simp only [View.readAt_eq_ld, Memref.IsWhole.read_unread, View.ld_unit_zero (S := S1024x512) zeroOffsets]

/-- After a middle step the accumulator is what it held plus the step's two partial products. -/
theorem accMid_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : ¬condLast i) (x0 x1 x2 x3 : Vec F S1024x512 .bf16) (x4 x5 : Vec F S1x1024 .f32) (x6 : Vec F S1024x1024 .f32) (xs : Vec F S1024x1024 .f32) :
    accMid c i arg3 harg3 arg4 harg4 arg5 harg5 arg6 harg6 arg7 harg7 arg8 harg8 arg9 harg9 arg10 harg10 arg11 harg11 arg12 harg12 hc0 hc1 hc2 x0 x1 x2 x3 x4 x5 x6 xs = k0_pay4 x0 x2 x1 x3 xs := by
  unfold accMid
  rw [View.read_writes_junk_eq_canon]
  unfold runMid
  dsimp only
  refine (View.canon_unit_zero (S := S1024x1024) zeroOffsets _ _).trans ?_
  simp only [View.readAt_eq_ld, Memref.IsWhole.read_unread, View.ld_unit_zero (S := S1024x512) zeroOffsets, View.ld_unit_zero (S := S1024x1024) zeroOffsets]

/-- The pieces the last step stores into the accumulator read back as what it held plus the step's two partial products. -/
theorem accLast_canon (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) :
    View.canon (runLast c i arg3 harg3 arg4 harg4 arg5 harg5 arg6 harg6 arg7 harg7 arg8 harg8 arg9 harg9 arg10 harg10 arg11 harg11 arg12 harg12 hc0 hc1 hc2 x0 x1 x2 x3 x4 x5 x6 xs).2.2.1 = k0_pay4 x0 x2 x1 x3 xs := by
  unfold runLast
  dsimp only
  unfold runLast.sl.HS_1
  refine (View.canon_unit_zero (S := S1024x1024) zeroOffsets _ _).trans ?_
  simp only [View.readAt_eq_ld, Memref.IsWhole.read_unread, View.ld_unit_zero (S := S1024x512) zeroOffsets, View.ld_unit_zero (S := S1024x1024) zeroOffsets]

/-- After the last step the accumulator is what it held plus the step's two partial products. -/
theorem accLast_eq (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) :
    accLast c i arg3 harg3 arg4 harg4 arg5 harg5 arg6 harg6 arg7 harg7 arg8 harg8 arg9 harg9 arg10 harg10 arg11 harg11 arg12 harg12 hc0 hc1 hc2 x0 x1 x2 x3 x4 x5 x6 xs = k0_pay4 x0 x2 x1 x3 xs := by
  unfold accLast
  rw [View.read_writes_junk_eq_canon]
  exact accLast_canon c i arg3 harg3 arg4 harg4 arg5 harg5 arg6 harg6 arg7 harg7 arg8 harg8 arg9 harg9 arg10 harg10 arg11 harg11 arg12 harg12 hc0 hc1 hc2 x0 x1 x2 x3 x4 x5 x6 xs

/-- The hidden-state buffer after the last step reads as the pieces stored into it. -/
theorem hidLast_canon (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) :
    hidLast c i arg3 harg3 arg4 harg4 arg5 harg5 arg6 harg6 arg7 harg7 arg8 harg8 arg9 harg9 arg10 harg10 arg11 harg11 arg12 harg12 hc0 hc1 hc2 x0 x1 x2 x3 x4 x5 x6 xs = View.canon (runLast c i arg3 harg3 arg4 harg4 arg5 harg5 arg6 harg6 arg7 harg7 arg8 harg8 arg9 harg9 arg10 harg10 arg11 harg11 arg12 harg12 hc0 hc1 hc2 x0 x1 x2 x3 x4 x5 x6 xs).1 := by
  unfold hidLast
  rw [View.read_writes_junk_eq_canon]

/-- The cell buffer after the last step reads as the pieces stored into it. -/
theorem cellLast_canon (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i) (x0 x1 x2 x3 : Vec F S1024x512 .bf16) (x4 x5 : Vec F S1x1024 .f32) (x6 : Vec F S1024x1024 .f32) (xs : Vec F S1024x1024 .f32) :
    cellLast c i arg3 harg3 arg4 harg4 arg5 harg5 arg6 harg6 arg7 harg7 arg8 harg8 arg9 harg9 arg10 harg10 arg11 harg11 arg12 harg12 hc0 hc1 hc2 x0 x1 x2 x3 x4 x5 x6 xs = View.canon (runLast c i arg3 harg3 arg4 harg4 arg5 harg5 arg6 harg6 arg7 harg7 arg8 harg8 arg9 harg9 arg10 harg10 arg11 harg11 arg12 harg12 hc0 hc1 hc2 x0 x1 x2 x3 x4 x5 x6 xs).2.1 := by
  unfold cellLast
  rw [View.read_writes_junk_eq_canon]

end Cert.KernelIdeal.Body

end
-- ==== Proof.KI.Steps.lean ====
/-
  What the accumulator and the two result buffers hold after a grid point, in terms of the tiles the point
  reads and of what the point before left — at any float instance.
-/
import proofs.«142987_j23811298689968_2_alg».proof.Proof.KI.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

attribute [local irreducible] outsAt accFirst accMid accLast hidLast cellLast idleOut

/-- After a first step the accumulator is the step's two partial products of the point's tiles. -/
theorem acc_first (c : Dev nD) (t : Fin cfg0.N) (h0 : t.val % 8 = 0) :
    (outsAt m c t.val t.isLt).2.2 = k0_pay3 (iblk m c 0 t) (iblk m c 2 t) (iblk m c 1 t) (iblk m c 3 t) :=
  (congrArg (fun p : Vec F S1024x1024 .f32 × Vec F S1024x1024 .f32 × Vec F S1024x1024 .f32 => p.2.2) (outsAt_first m c t h0)).trans
    (accFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((condFirst_iff t).mpr h0) (notLater_of h0) (notLast_of_first h0) (iblk m c 0 t) (iblk m c 1 t) (iblk m c 2 t) (iblk m c 3 t) (iblk m c 4 t) (iblk m c 5 t) (iblk m c 6 t))

/-- After a later step it is what the point before left plus the step's two partial products. -/
theorem acc_later (c : Dev nD) (t : Fin cfg0.N) (h0 : ¬t.val % 8 = 0) :
    (outsAt m c t.val t.isLt).2.2 = k0_pay4 (iblk m c 0 t) (iblk m c 2 t) (iblk m c 1 t) (iblk m c 3 t) (outsAt m c (t.val - 1) (Nat.lt_of_le_of_lt (Nat.sub_le _ _) t.isLt)).2.2 := by
  by_cases h7 : t.val % 8 = 7
  · exact (congrArg (fun p : Vec F S1024x1024 .f32 × Vec F S1024x1024 .f32 × Vec F S1024x1024 .f32 => p.2.2) (outsAt_last m c t h0 h7)).trans
      (accLast_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2)
  · exact (congrArg (fun p : Vec F S1024x1024 .f32 × Vec F S1024x1024 .f32 × Vec F S1024x1024 .f32 => p.2.2) (outsAt_mid m c t h0 h7)).trans
      (accMid_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) (notLast_of h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2)

/-- After the last step the hidden-state buffer reads as the pieces the last-step run stored into it. -/
theorem hid_last (c : Dev nD) (t : Fin cfg0.N) (h0 : ¬t.val % 8 = 0) (h7 : t.val % 8 = 7) :
    (outsAt m c t.val t.isLt).1 = View.canon (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2).1 :=
  (congrArg (fun p : Vec F S1024x1024 .f32 × Vec F S1024x1024 .f32 × Vec F S1024x1024 .f32 => p.1) (outsAt_last m c t h0 h7)).trans (hidLast_canon c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2)

/-- And the cell buffer as the pieces stored into it. -/
theorem cell_last (c : Dev nD) (t : Fin cfg0.N) (h0 : ¬t.val % 8 = 0) (h7 : t.val % 8 = 7) :
    (outsAt m c t.val t.isLt).2.1 = View.canon (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2).2.1 :=
  (congrArg (fun p : Vec F S1024x1024 .f32 × Vec F S1024x1024 .f32 × Vec F S1024x1024 .f32 => p.2.1) (outsAt_last m c t h0 h7)).trans (cellLast_canon c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2)

end Cert.KernelIdeal.Body

end
-- ==== Proof.Spec.lean ====
/-
  The gate cell as one function of the argument arrays, index by index, over the extended reals.

  For a row p and a column q the pre-activation is
      z(p,q) = ((Σ_k x(p,k)·Wi(q,k)) + bi(q)) + (Σ_k h(p,k)·Wh(q,k)) + bh(q),
  the gate value is s = 1/(1+e^(−z)), the new cell is c·s + s·tanh z and the new hidden state is
  s·tanh(new cell).  The sums are over the 4096 contraction indices; + on the extended reals is
  commutative and associative, so the order in which the four terms and the partial sums are added
  does not matter (no finiteness is needed for that).
-/
import Idealize.ShloMosaic.PureOps.Ideal
import Idealize.ShloMosaic.Lib.ValueIdx

noncomputable section

namespace Cert.GateSpec

open Idealize.ShloMosaic Idealize.ShloMosaic.ValueIdx

/-- The literal shapes. -/
abbrev SBH : Shape := ⟨2, ![8192, 4096]⟩
abbrev SHH : Shape := ⟨2, ![4096, 4096]⟩
abbrev SH : Shape := ⟨1, ![4096]⟩

/-- The pre-activation, the four terms added in the order the plain program adds them. -/
def preact (x h : SBH.Idx → EReal) (wi wh : SHH.Idx → EReal) (bi bh : SH.Idx → EReal)
    (p : Fin 8192) (q : Fin 4096) : EReal :=
  (((∑ k : Fin 4096, x (ix2 p k) * wi (ix2 q k)) + bi (ix1 q)) + (∑ k : Fin 4096, h (ix2 p k) * wh (ix2 q k))) + bh (ix1 q)

/-- Contraction index number `kk` of block `kb`, the 4096 indices cut into 8 blocks of 512. -/
def blk (kb : Fin 8) (kk : Fin 512) : Fin 4096 := ⟨kb.val * 512 + kk.val, by omega⟩

/-- Row `r` of row tile `ti` (8 tiles of 1024 rows), and column `cc` of column tile `tj` (4 tiles of 1024 columns). -/
def tileRow (ti : Fin 8) (r : Fin 1024) : Fin 8192 := ⟨ti.val * 1024 + r.val, by omega⟩
def tileCol (tj : Fin 4) (cc : Fin 1024) : Fin 4096 := ⟨tj.val * 1024 + cc.val, by omega⟩

/-- What contraction step `kb` contributes at (p,q): the two partial products over block `kb`. -/
def stepTerm (x h : SBH.Idx → EReal) (wi wh : SHH.Idx → EReal) (p : Fin 8192) (q : Fin 4096) (kb : Fin 8) : EReal :=
  (∑ kk : Fin 512, x (ix2 p (blk kb kk)) * wi (ix2 q (blk kb kk)))
    + (∑ kk : Fin 512, h (ix2 p (blk kb kk)) * wh (ix2 q (blk kb kk)))

/-- The same at a step number given as a natural number (zero past the last step). -/
def stepTermN (x h : SBH.Idx → EReal) (wi wh : SHH.Idx → EReal) (p : Fin 8192) (q : Fin 4096) (n : ℕ) : EReal :=
  if hn : n < 8 then stepTerm x h wi wh p q ⟨n, hn⟩ else 0

/-- The accumulator at (p,q) after steps 0, …, n: step 0 stored, every later step added on the right. -/
def accAfter (x h : SBH.Idx → EReal) (wi wh : SHH.Idx → EReal) (p : Fin 8192) (q : Fin 4096) : ℕ → EReal
  | 0 => stepTermN x h wi wh p q 0
  | n + 1 => accAfter x h wi wh p q n + stepTermN x h wi wh p q (n + 1)

/-- The pre-activation in the order the tiled program forms it: the accumulated steps, then the two biases. -/
def preactTiled (x h : SBH.Idx → EReal) (wi wh : SHH.Idx → EReal) (bi bh : SH.Idx → EReal)
    (p : Fin 8192) (q : Fin 4096) : EReal :=
  (accAfter x h wi wh p q 7 + bi (ix1 q)) + bh (ix1 q)

/-- The new cell value from the pre-activation and the old cell value. -/
def cellOf (z c : EReal) : EReal := c * Ideal.logistic z + Ideal.logistic z * Ideal.tanh z

/-- The new hidden value from the pre-activation and the old cell value. -/
def hidOf (z c : EReal) : EReal := Ideal.logistic z * Ideal.tanh (cellOf z c)

/-- The new cell array. -/
def cellArr (x h c : SBH.Idx → EReal) (wi wh : SHH.Idx → EReal) (bi bh : SH.Idx → EReal) : SBH.Idx → EReal :=
  fun i => cellOf (preact x h wi wh bi bh (i 0) (i 1)) (c i)

/-- The new hidden array. -/
def hidArr (x h c : SBH.Idx → EReal) (wi wh : SHH.Idx → EReal) (bi bh : SH.Idx → EReal) : SBH.Idx → EReal :=
  fun i => hidOf (preact x h wi wh bi bh (i 0) (i 1)) (c i)

end Cert.GateSpec

end
-- ==== Proof.KI.Blocks.lean ====
/-
  The pipeline's blocks read at an index.

  The grid is 8 row tiles × 4 column tiles × 8 contraction steps.  At the point (ti, tj, tk) the input
  blocks are: rows of tile ti and contraction indices of block tk of x and of h; rows of tile tj and
  contraction indices of block tk of the two weights; columns of tile tj of the two biases; rows of
  tile ti and columns of tile tj of the old cell.  The two result blocks are rows of tile ti and
  columns of tile tj.  A block's coordinate in the array is always the block index times the block
  size plus the coordinate inside the block.
-/
import proofs.«142987_j23811298689968_2_alg».proof.Proof.Gen.KernelIdeal.Frame
import proofs.«142987_j23811298689968_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.GateSpec Idealize.ShloMosaic Idealize.ShloMosaic.TcCoe
  Idealize.ShloMosaic.ValueIdx Idealize.SL.Sem

variable (m : (ℓ : Loc nD τ sig) → Buf (Elt Ideal) ℓ) (c : Dev nD)

/-! ## The block indices, decided once over the 256 grid points

The grid is 8 × 4 × 8, row-major: point number `t` is row tile `t / 32`, column tile `t / 8 % 4` and
contraction step `t % 8`. -/

/-- Window 0's block at a grid point: the row tile and the contraction step. -/
theorem idx0 : ∀ t : Fin cfg0.N, win0_0.index t 0 = t.val / 32 ∧ win0_0.index t 1 = t.val % 8 :=
  (by decide +kernel : ∀ t : Fin grid0.N, _)

/-- Window 1's block at a grid point: the row tile and the contraction step. -/
theorem idx1 : ∀ t : Fin cfg0.N, win0_1.index t 0 = t.val / 32 ∧ win0_1.index t 1 = t.val % 8 :=
  (by decide +kernel : ∀ t : Fin grid0.N, _)

/-- Window 2's block at a grid point: the column tile and the contraction step. -/
theorem idx2 : ∀ t : Fin cfg0.N, win0_2.index t 0 = t.val / 8 % 4 ∧ win0_2.index t 1 = t.val % 8 :=
  (by decide +kernel : ∀ t : Fin grid0.N, _)

/-- Window 3's block at a grid point: the column tile and the contraction step. -/
theorem idx3 : ∀ t : Fin cfg0.N, win0_3.index t 0 = t.val / 8 % 4 ∧ win0_3.index t 1 = t.val % 8 :=
  (by decide +kernel : ∀ t : Fin grid0.N, _)

/-- Window 4's block at a grid point: the one row and the column tile. -/
theorem idx4 : ∀ t : Fin cfg0.N, win0_4.index t 0 = 0 ∧ win0_4.index t 1 = t.val / 8 % 4 :=
  (by decide +kernel : ∀ t : Fin grid0.N, _)

/-- Window 5's block at a grid point: the one row and the column tile. -/
theorem idx5 : ∀ t : Fin cfg0.N, win0_5.index t 0 = 0 ∧ win0_5.index t 1 = t.val / 8 % 4 :=
  (by decide +kernel : ∀ t : Fin grid0.N, _)

/-- Window 6's block at a grid point: the row tile and the column tile. -/
theorem idx6 : ∀ t : Fin cfg0.N, win0_6.index t 0 = t.val / 32 ∧ win0_6.index t 1 = t.val / 8 % 4 :=
  (by decide +kernel : ∀ t : Fin grid0.N, _)

/-- Window 7's block at a grid point: the row tile and the column tile. -/
theorem idx7 : ∀ t : Fin cfg0.N, win0_7.index t 0 = t.val / 32 ∧ win0_7.index t 1 = t.val / 8 % 4 :=
  (by decide +kernel : ∀ t : Fin grid0.N, _)

/-- Window 8's block at a grid point: the row tile and the column tile. -/
theorem idx8 : ∀ t : Fin cfg0.N, win0_8.index t 0 = t.val / 32 ∧ win0_8.index t 1 = t.val / 8 % 4 :=
  (by decide +kernel : ∀ t : Fin grid0.N, _)

/-! ## The arrays as the pipeline finds them

Rounding to the narrower format is the identity on extended reals, so the four narrowed arrays hold
the arguments themselves; the two bias rows are the bias vectors with a unit axis in front. -/

/-- The narrowed copy of `main_arg0` holds `main_arg0`. -/
theorem V_v0 : (V (F := Ideal) m c main_v0 : S8192x4096.Idx → EReal)
    = (m ((c.tc : Thread nD τ).loc main_arg0) : S8192x4096.Idx → EReal) := by
  dsimp only [Gen.V, Gen.hostOps0]; after_results; rfl

/-- The narrowed copy of `main_arg1` holds `main_arg1`. -/
theorem V_v1 : (V (F := Ideal) m c main_v1 : S8192x4096.Idx → EReal)
    = (m ((c.tc : Thread nD τ).loc main_arg1) : S8192x4096.Idx → EReal) := by
  dsimp only [Gen.V, Gen.hostOps0]; after_results; rfl

/-- The narrowed copy of `main_arg3` holds `main_arg3`. -/
theorem V_v2 : (V (F := Ideal) m c main_v2 : S4096x4096.Idx → EReal)
    = (m ((c.tc : Thread nD τ).loc main_arg3) : S4096x4096.Idx → EReal) := by
  dsimp only [Gen.V, Gen.hostOps0]; after_results; rfl

/-- The narrowed copy of `main_arg5` holds `main_arg5`. -/
theorem V_v3 : (V (F := Ideal) m c main_v3 : S4096x4096.Idx → EReal)
    = (m ((c.tc : Thread nD τ).loc main_arg5) : S4096x4096.Idx → EReal) := by
  dsimp only [Gen.V, Gen.hostOps0]; after_results; rfl

/-- The bias row is `main_arg4` with a unit axis in front. -/
theorem V_v4 : (V (F := Ideal) m c main_v4 : S1x4096.Idx → EReal)
    = shapeCast S1x4096 (m ((c.tc : Thread nD τ).loc main_arg4) : S4096.Idx → EReal) shapeCasts_S4096_S1x4096 := by
  dsimp only [Gen.V, Gen.hostOps0]; after_results; rfl

/-- The bias row is `main_arg6` with a unit axis in front. -/
theorem V_v5 : (V (F := Ideal) m c main_v5 : S1x4096.Idx → EReal)
    = shapeCast S1x4096 (m ((c.tc : Thread nD τ).loc main_arg6) : S4096.Idx → EReal) shapeCasts_S4096_S1x4096 := by
  dsimp only [Gen.V, Gen.hostOps0]; after_results; rfl

/-! ## The input blocks read at an index -/

/-- Window 0's block at (r, kk) is `main_arg0` at row r of the row tile and index kk of the contraction block. -/
theorem iblk0_apply (t : Fin cfg0.N) (ti : Fin 8) (tj : Fin 4) (tk : Fin 8)
    (ht : t.val = ti.val * 32 + tj.val * 8 + tk.val) (r : Fin 1024) (kk : Fin 512) :
    (iblk (F := Ideal) m c 0 t : Vec Ideal S1024x512 .bf16) (ix2 r kk)
      = (m ((c.tc : Thread nD τ).loc main_arg0) : S8192x4096.Idx → EReal) (ix2 (tileRow ti r) (blk tk kk)) := by
  obtain ⟨e0, e1⟩ := idx0 t
  unfold iblk
  rw [View.read_apply]
  show (V (F := Ideal) m c main_v0 : S8192x4096.Idx → EReal) _ = _
  rw [V_v0]
  congr 1
  funext a
  apply Fin.ext
  match a with
  | ⟨0, _⟩ =>
    show win0_0.index t 0 * 1024 + 1 * r.val = ti.val * 1024 + r.val
    rw [e0]; have := ti.isLt; have := tj.isLt; have := tk.isLt; omega
  | ⟨1, _⟩ =>
    show win0_0.index t 1 * 512 + 1 * kk.val = tk.val * 512 + kk.val
    rw [e1]; have := ti.isLt; have := tj.isLt; have := tk.isLt; omega

/-- Window 1's block at (r, kk) is `main_arg1` at row r of the row tile and index kk of the contraction block. -/
theorem iblk1_apply (t : Fin cfg0.N) (ti : Fin 8) (tj : Fin 4) (tk : Fin 8)
    (ht : t.val = ti.val * 32 + tj.val * 8 + tk.val) (r : Fin 1024) (kk : Fin 512) :
    (iblk (F := Ideal) m c 1 t : Vec Ideal S1024x512 .bf16) (ix2 r kk)
      = (m ((c.tc : Thread nD τ).loc main_arg1) : S8192x4096.Idx → EReal) (ix2 (tileRow ti r) (blk tk kk)) := by
  obtain ⟨e0, e1⟩ := idx1 t
  unfold iblk
  rw [View.read_apply]
  show (V (F := Ideal) m c main_v1 : S8192x4096.Idx → EReal) _ = _
  rw [V_v1]
  congr 1
  funext a
  apply Fin.ext
  match a with
  | ⟨0, _⟩ =>
    show win0_1.index t 0 * 1024 + 1 * r.val = ti.val * 1024 + r.val
    rw [e0]; have := ti.isLt; have := tj.isLt; have := tk.isLt; omega
  | ⟨1, _⟩ =>
    show win0_1.index t 1 * 512 + 1 * kk.val = tk.val * 512 + kk.val
    rw [e1]; have := ti.isLt; have := tj.isLt; have := tk.isLt; omega

/-- Window 2's block at (cc, kk) is `main_arg3` at row cc of the column tile and index kk of the contraction block. -/
theorem iblk2_apply (t : Fin cfg0.N) (ti : Fin 8) (tj : Fin 4) (tk : Fin 8)
    (ht : t.val = ti.val * 32 + tj.val * 8 + tk.val) (cc : Fin 1024) (kk : Fin 512) :
    (iblk (F := Ideal) m c 2 t : Vec Ideal S1024x512 .bf16) (ix2 cc kk)
      = (m ((c.tc : Thread nD τ).loc main_arg3) : S4096x4096.Idx → EReal) (ix2 (tileCol tj cc) (blk tk kk)) := by
  obtain ⟨e0, e1⟩ := idx2 t
  unfold iblk
  rw [View.read_apply]
  show (V (F := Ideal) m c main_v2 : S4096x4096.Idx → EReal) _ = _
  rw [V_v2]
  congr 1
  funext a
  apply Fin.ext
  match a with
  | ⟨0, _⟩ =>
    show win0_2.index t 0 * 1024 + 1 * cc.val = tj.val * 1024 + cc.val
    rw [e0]; have := ti.isLt; have := tj.isLt; have := tk.isLt; omega
  | ⟨1, _⟩ =>
    show win0_2.index t 1 * 512 + 1 * kk.val = tk.val * 512 + kk.val
    rw [e1]; have := ti.isLt; have := tj.isLt; have := tk.isLt; omega

/-- Window 3's block at (cc, kk) is `main_arg5` at row cc of the column tile and index kk of the contraction block. -/
theorem iblk3_apply (t : Fin cfg0.N) (ti : Fin 8) (tj : Fin 4) (tk : Fin 8)
    (ht : t.val = ti.val * 32 + tj.val * 8 + tk.val) (cc : Fin 1024) (kk : Fin 512) :
    (iblk (F := Ideal) m c 3 t : Vec Ideal S1024x512 .bf16) (ix2 cc kk)
      = (m ((c.tc : Thread nD τ).loc main_arg5) : S4096x4096.Idx → EReal) (ix2 (tileCol tj cc) (blk tk kk)) := by
  obtain ⟨e0, e1⟩ := idx3 t
  unfold iblk
  rw [View.read_apply]
  show (V (F := Ideal) m c main_v3 : S4096x4096.Idx → EReal) _ = _
  rw [V_v3]
  congr 1
  funext a
  apply Fin.ext
  match a with
  | ⟨0, _⟩ =>
    show win0_3.index t 0 * 1024 + 1 * cc.val = tj.val * 1024 + cc.val
    rw [e0]; have := ti.isLt; have := tj.isLt; have := tk.isLt; omega
  | ⟨1, _⟩ =>
    show win0_3.index t 1 * 512 + 1 * kk.val = tk.val * 512 + kk.val
    rw [e1]; have := ti.isLt; have := tj.isLt; have := tk.isLt; omega

/-- Window 4's block at (0, cc) is `main_arg4` at column cc of the column tile. -/
theorem iblk4_apply (t : Fin cfg0.N) (ti : Fin 8) (tj : Fin 4) (tk : Fin 8)
    (ht : t.val = ti.val * 32 + tj.val * 8 + tk.val) (cc : Fin 1024) :
    (iblk (F := Ideal) m c 4 t : Vec Ideal S1x1024 .f32) (ix2 (0 : Fin 1) cc)
      = (m ((c.tc : Thread nD τ).loc main_arg4) : S4096.Idx → EReal) (ix1 (tileCol tj cc)) := by
  obtain ⟨e0, e1⟩ := idx4 t
  unfold iblk
  rw [View.read_apply]
  show (V (F := Ideal) m c main_v4 : S1x4096.Idx → EReal) _ = _
  rw [V_v4]
  refine (congrArg (shapeCast S1x4096 (m ((c.tc : Thread nD τ).loc main_arg4) : S4096.Idx → EReal) shapeCasts_S4096_S1x4096) ?_).trans
    (shapeCast_a_1a_apply _ _ (0 : Fin 1) (tileCol tj cc))
  funext a
  apply Fin.ext
  match a with
  | ⟨0, _⟩ =>
    show win0_4.index t 0 * 1 + 1 * 0 = 0
    rw [e0]
  | ⟨1, _⟩ =>
    show win0_4.index t 1 * 1024 + 1 * cc.val = tj.val * 1024 + cc.val
    rw [e1]; have := ti.isLt; have := tj.isLt; have := tk.isLt; omega

/-- Window 5's block at (0, cc) is `main_arg6` at column cc of the column tile. -/
theorem iblk5_apply (t : Fin cfg0.N) (ti : Fin 8) (tj : Fin 4) (tk : Fin 8)
    (ht : t.val = ti.val * 32 + tj.val * 8 + tk.val) (cc : Fin 1024) :
    (iblk (F := Ideal) m c 5 t : Vec Ideal S1x1024 .f32) (ix2 (0 : Fin 1) cc)
      = (m ((c.tc : Thread nD τ).loc main_arg6) : S4096.Idx → EReal) (ix1 (tileCol tj cc)) := by
  obtain ⟨e0, e1⟩ := idx5 t
  unfold iblk
  rw [View.read_apply]
  show (V (F := Ideal) m c main_v5 : S1x4096.Idx → EReal) _ = _
  rw [V_v5]
  refine (congrArg (shapeCast S1x4096 (m ((c.tc : Thread nD τ).loc main_arg6) : S4096.Idx → EReal) shapeCasts_S4096_S1x4096) ?_).trans
    (shapeCast_a_1a_apply _ _ (0 : Fin 1) (tileCol tj cc))
  funext a
  apply Fin.ext
  match a with
  | ⟨0, _⟩ =>
    show win0_5.index t 0 * 1 + 1 * 0 = 0
    rw [e0]
  | ⟨1, _⟩ =>
    show win0_5.index t 1 * 1024 + 1 * cc.val = tj.val * 1024 + cc.val
    rw [e1]; have := ti.isLt; have := tj.isLt; have := tk.isLt; omega

/-- Window 6's block at (r, cc) is `main_arg2` at row r of the row tile and column cc of the column tile. -/
theorem iblk6_apply (t : Fin cfg0.N) (ti : Fin 8) (tj : Fin 4) (tk : Fin 8)
    (ht : t.val = ti.val * 32 + tj.val * 8 + tk.val) (r cc : Fin 1024) :
    (iblk (F := Ideal) m c 6 t : Vec Ideal S1024x1024 .f32) (ix2 r cc)
      = (m ((c.tc : Thread nD τ).loc main_arg2) : S8192x4096.Idx → EReal) (ix2 (tileRow ti r) (tileCol tj cc)) := by
  obtain ⟨e0, e1⟩ := idx6 t
  unfold iblk
  rw [View.read_apply]
  show (V (F := Ideal) m c main_arg2 : S8192x4096.Idx → EReal) _ = _
  rw [V_main_arg2]
  congr 1
  funext a
  apply Fin.ext
  match a with
  | ⟨0, _⟩ =>
    show win0_6.index t 0 * 1024 + 1 * r.val = ti.val * 1024 + r.val
    rw [e0]; have := ti.isLt; have := tj.isLt; have := tk.isLt; omega
  | ⟨1, _⟩ =>
    show win0_6.index t 1 * 1024 + 1 * cc.val = tj.val * 1024 + cc.val
    rw [e1]; have := ti.isLt; have := tj.isLt; have := tk.isLt; omega

/-! ## The result blocks: what they read of a whole array, and which indices they hold -/

/-- Window 7's block of any whole array G, at (r, cc), is G at row r of the row tile and column cc of
the column tile. -/
theorem out7_read (G : S8192x4096.Idx → EReal) (t : Fin cfg0.N) (ti : Fin 8) (tj : Fin 4) (tk : Fin 8)
    (ht : t.val = ti.val * 32 + tj.val * 8 + tk.val) (r cc : Fin 1024) :
    ((cfg0.win 7).blk t).view.read (Elt Ideal) G (ix2 r cc) = G (ix2 (tileRow ti r) (tileCol tj cc)) := by
  obtain ⟨e0, e1⟩ := idx7 t
  rw [View.read_apply]
  show G _ = _
  congr 1
  funext a
  apply Fin.ext
  match a with
  | ⟨0, _⟩ =>
    show win0_7.index t 0 * 1024 + 1 * r.val = ti.val * 1024 + r.val
    rw [e0]; have := ti.isLt; have := tj.isLt; have := tk.isLt; omega
  | ⟨1, _⟩ =>
    show win0_7.index t 1 * 1024 + 1 * cc.val = tj.val * 1024 + cc.val
    rw [e1]; have := ti.isLt; have := tj.isLt; have := tk.isLt; omega

/-- An index of the array lies in window 7's block at a grid point exactly when its row is in the
point's row tile and its column in the point's column tile. -/
theorem out7_mem (t : Fin cfg0.N) (ti : Fin 8) (tj : Fin 4) (tk : Fin 8)
    (ht : t.val = ti.val * 32 + tj.val * 8 + tk.val) (i : S8192x4096.Idx) :
    i ∈ ((cfg0.win 7).blk t).view.set ↔ (i 0).val / 1024 = ti.val ∧ (i 1).val / 1024 = tj.val := by
  obtain ⟨e0, e1⟩ := idx7 t
  show i ∈ ((View.whole main_v6_0).slice (win0_7.rect t)).set ↔ _
  rw [View.set_slice_whole, Rect.mem_set_unit]
  constructor
  · intro h
    have b0 : win0_7.index t 0 * 1024 ≤ (i 0).val ∧ (i 0).val < win0_7.index t 0 * 1024 + 1024 := h 0
    have b1 : win0_7.index t 1 * 1024 ≤ (i 1).val ∧ (i 1).val < win0_7.index t 1 * 1024 + 1024 := h 1
    rw [e0] at b0; rw [e1] at b1
    have := ti.isLt; have := tj.isLt; have := tk.isLt; omega
  · rintro ⟨h0, h1⟩ a
    match a with
    | ⟨0, _⟩ =>
      show win0_7.index t 0 * 1024 ≤ (i 0).val ∧ (i 0).val < win0_7.index t 0 * 1024 + 1024
      rw [e0]; have := ti.isLt; have := tj.isLt; have := tk.isLt; omega
    | ⟨1, _⟩ =>
      show win0_7.index t 1 * 1024 ≤ (i 1).val ∧ (i 1).val < win0_7.index t 1 * 1024 + 1024
      rw [e1]; have := ti.isLt; have := tj.isLt; have := tk.isLt; omega

/-- Window 8's block of any whole array G, at (r, cc), is G at row r of the row tile and column cc of
the column tile. -/
theorem out8_read (G : S8192x4096.Idx → EReal) (t : Fin cfg0.N) (ti : Fin 8) (tj : Fin 4) (tk : Fin 8)
    (ht : t.val = ti.val * 32 + tj.val * 8 + tk.val) (r cc : Fin 1024) :
    ((cfg0.win 8).blk t).view.read (Elt Ideal) G (ix2 r cc) = G (ix2 (tileRow ti r) (tileCol tj cc)) := by
  obtain ⟨e0, e1⟩ := idx8 t
  rw [View.read_apply]
  show G _ = _
  congr 1
  funext a
  apply Fin.ext
  match a with
  | ⟨0, _⟩ =>
    show win0_8.index t 0 * 1024 + 1 * r.val = ti.val * 1024 + r.val
    rw [e0]; have := ti.isLt; have := tj.isLt; have := tk.isLt; omega
  | ⟨1, _⟩ =>
    show win0_8.index t 1 * 1024 + 1 * cc.val = tj.val * 1024 + cc.val
    rw [e1]; have := ti.isLt; have := tj.isLt; have := tk.isLt; omega

/-- An index of the array lies in window 8's block at a grid point exactly when its row is in the
point's row tile and its column in the point's column tile. -/
theorem out8_mem (t : Fin cfg0.N) (ti : Fin 8) (tj : Fin 4) (tk : Fin 8)
    (ht : t.val = ti.val * 32 + tj.val * 8 + tk.val) (i : S8192x4096.Idx) :
    i ∈ ((cfg0.win 8).blk t).view.set ↔ (i 0).val / 1024 = ti.val ∧ (i 1).val / 1024 = tj.val := by
  obtain ⟨e0, e1⟩ := idx8 t
  show i ∈ ((View.whole main_v6_1).slice (win0_8.rect t)).set ↔ _
  rw [View.set_slice_whole, Rect.mem_set_unit]
  constructor
  · intro h
    have b0 : win0_8.index t 0 * 1024 ≤ (i 0).val ∧ (i 0).val < win0_8.index t 0 * 1024 + 1024 := h 0
    have b1 : win0_8.index t 1 * 1024 ≤ (i 1).val ∧ (i 1).val < win0_8.index t 1 * 1024 + 1024 := h 1
    rw [e0] at b0; rw [e1] at b1
    have := ti.isLt; have := tj.isLt; have := tk.isLt; omega
  · rintro ⟨h0, h1⟩ a
    match a with
    | ⟨0, _⟩ =>
      show win0_8.index t 0 * 1024 ≤ (i 0).val ∧ (i 0).val < win0_8.index t 0 * 1024 + 1024
      rw [e0]; have := ti.isLt; have := tj.isLt; have := tk.isLt; omega
    | ⟨1, _⟩ =>
      show win0_8.index t 1 * 1024 ≤ (i 1).val ∧ (i 1).val < win0_8.index t 1 * 1024 + 1024
      rw [e1]; have := ti.isLt; have := tj.isLt; have := tk.isLt; omega

end Cert.KernelIdeal.Blocks

end
-- ==== Proof.PayloadAcc.lean ====
/-
  The accumulation payloads of the tiled program, read at an index.

  One contraction step multiplies a [1024,512] block of the input by a [1024,512] block of the
  weight, contracting the second axis of both, once for each of the two products; entry (r, cc) of
  each product is a sum over the 512 indices of the block.  The first step stores the sum of the two
  products, a later step adds that sum to the accumulator.
-/
import proofs.«142987_j23811298689968_2_alg».proof.Proof.Gen.KernelIdeal.Skeleton
import proofs.«142987_j23811298689968_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- The first coordinate of the left operand's index is the output's row. -/
theorem lhs_coord0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- The second coordinate of the left operand's index is the contraction index. -/
theorem lhs_coord1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- The first coordinate of the right operand's index is the output's column. -/
theorem rhs_coord0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The second coordinate of the right operand's index is the contraction index. -/
theorem rhs_coord1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (r, cc) of the product of a [1024,512] block with a [1024,512] block, both contracted along
their second axis and started from zero, is the dot product of row r of the first with row cc of the
second. -/
theorem matmul_rows_apply (a b : FVec Ideal S1024x512 .bf16) (r cc : Fin 1024) :
    FloatOps.matmul dot_S1024x512_S1024x512_S1024x1024_1_1_0_0_n_n none a b (constant S1024x1024 .f32 0x00000000#32) (ix2 r cc)
      = ∑ kk : Fin 512, a (ix2 r kk) * b (ix2 cc kk) := by
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r cc) ((contrEquiv1 dot_S1024x512_S1024x512_S1024x1024_1_1_0_0_n_n 512 rfl rfl).symm k) = ix2 r k :=
    funext fun a => Fin.ext (by
      match a with
      | ⟨0, _⟩ => exact lhs_coord0 _ _
      | ⟨1, _⟩ => exact (lhs_coord1 _ _).trans hk)
  have er : dot_S1024x512_S1024x512_S1024x1024_1_1_0_0_n_n.rhsIdx (ix2 r cc) ((contrEquiv1 dot_S1024x512_S1024x512_S1024x1024_1_1_0_0_n_n 512 rfl rfl).symm k) = ix2 cc k :=
    funext fun a => Fin.ext (by
      match a with
      | ⟨0, _⟩ => exact rhs_coord0 _ _
      | ⟨1, _⟩ => exact (rhs_coord1 _ _).trans hk)
  rw [el, er]
/-- The first partial product of a step, at (r, cc). -/
theorem pay1_apply (x0 x2 : Vec Ideal S1024x512 .bf16) (r cc : Fin 1024) :
    k0_pay1 (F := Ideal) x0 x2 (ix2 r cc) = ∑ kk : Fin 512, (x0 (ix2 r kk) : EReal) * (x2 (ix2 cc kk) : EReal) := by
  unfold k0_pay1
  simp only [shapeCast_self]
  exact matmul_rows_apply x0 x2 r cc

/-- The second partial product of a step, at (r, cc). -/
theorem pay2_apply (x1 x3 : Vec Ideal S1024x512 .bf16) (r cc : Fin 1024) :
    k0_pay2 (F := Ideal) x1 x3 (ix2 r cc) = ∑ kk : Fin 512, (x1 (ix2 r kk) : EReal) * (x3 (ix2 cc kk) : EReal) := by
  unfold k0_pay2
  simp only [shapeCast_self]
  exact matmul_rows_apply x1 x3 r cc

/-- What the first contraction step stores at (r, cc): the sum of the two partial products. -/
theorem pay3_apply (x0 x2 x1 x3 : Vec Ideal S1024x512 .bf16) (r cc : Fin 1024) :
    k0_pay3 (F := Ideal) x0 x2 x1 x3 (ix2 r cc)
      = (∑ kk : Fin 512, (x0 (ix2 r kk) : EReal) * (x2 (ix2 cc kk) : EReal))
        + (∑ kk : Fin 512, (x1 (ix2 r kk) : EReal) * (x3 (ix2 cc kk) : EReal)) := by
  unfold k0_pay3
  simp only [shapeCast_self]
  rw [addf_apply, pay1_apply, pay2_apply]

/-- What a later contraction step stores at (r, cc): the accumulator plus the sum of the two partial
products. -/
theorem pay4_apply (x0 x2 x1 x3 : Vec Ideal S1024x512 .bf16) (xs : Vec Ideal S1024x1024 .f32) (r cc : Fin 1024) :
    k0_pay4 (F := Ideal) x0 x2 x1 x3 xs (ix2 r cc)
      = (xs (ix2 r cc) : EReal) + ((∑ kk : Fin 512, (x0 (ix2 r kk) : EReal) * (x2 (ix2 cc kk) : EReal))
        + (∑ kk : Fin 512, (x1 (ix2 r kk) : EReal) * (x3 (ix2 cc kk) : EReal))) := by
  unfold k0_pay4
  simp only [shapeCast_self]
  rw [addf_apply, addf_apply, pay1_apply, pay2_apply]

end Cert.KernelIdeal.PayloadAt

end
-- ==== Proof.KI.Accum.lean ====
/-
  The accumulator after every grid point.

  Point number n = ti·32 + tj·8 + k works on output tile (ti, tj) at contraction step k.  After it the
  accumulator holds, at row r and column cc of the tile, the steps 0 … k accumulated left to right for the
  array row ti·1024 + r and the array column tj·1024 + cc — by induction on the point: a first step stores the
  step's two partial products, a later step adds them to what the point before (same tile, step k − 1) left.
-/
import proofs.«142987_j23811298689968_2_alg».proof.Proof.KI.Steps
import proofs.«142987_j23811298689968_2_alg».proof.Proof.KI.Blocks
import proofs.«142987_j23811298689968_2_alg».proof.Proof.PayloadAcc

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.GateSpec Cert.KernelIdeal.PayloadAt Cert.KernelIdeal.Blocks Idealize.ShloMosaic.ValueIdx

variable (m : (ℓ : Loc nD τ sig) → Buf (Elt Ideal) ℓ) (c : Dev nD)

attribute [local irreducible] outsAt accFirst accMid accLast hidLast cellLast idleOut

/-- The argument arrays as the program is launched with them. -/
abbrev aX : SBH.Idx → EReal := m ((c.tc : Thread nD τ).loc main_arg0)
abbrev aH : SBH.Idx → EReal := m ((c.tc : Thread nD τ).loc main_arg1)
abbrev aC : SBH.Idx → EReal := m ((c.tc : Thread nD τ).loc main_arg2)
abbrev aWi : SHH.Idx → EReal := m ((c.tc : Thread nD τ).loc main_arg3)
abbrev aBi : SH.Idx → EReal := m ((c.tc : Thread nD τ).loc main_arg4)
abbrev aWh : SHH.Idx → EReal := m ((c.tc : Thread nD τ).loc main_arg5)
abbrev aBh : SH.Idx → EReal := m ((c.tc : Thread nD τ).loc main_arg6)

/-- The four operand tiles at a point, as functions into the extended reals. -/
abbrev tX (t : Fin cfg0.N) : (⟨2, ![1024, 512]⟩ : Shape).Idx → EReal := iblk (F := Ideal) m c 0 t
abbrev tH (t : Fin cfg0.N) : (⟨2, ![1024, 512]⟩ : Shape).Idx → EReal := iblk (F := Ideal) m c 1 t
abbrev tWi (t : Fin cfg0.N) : (⟨2, ![1024, 512]⟩ : Shape).Idx → EReal := iblk (F := Ideal) m c 2 t
abbrev tWh (t : Fin cfg0.N) : (⟨2, ![1024, 512]⟩ : Shape).Idx → EReal := iblk (F := Ideal) m c 3 t

/-- The two partial products of the tiles at a point are the step's contribution at the array's row and column. -/
theorem step_at (t : Fin cfg0.N) (ti : Fin 8) (tj : Fin 4) (tk : Fin 8) (ht : t.val = ti.val * 32 + tj.val * 8 + tk.val) (r cc : Fin 1024) :
    (∑ kk : Fin 512, tX m c t (ix2 r kk) * tWi m c t (ix2 cc kk)) + (∑ kk : Fin 512, tH m c t (ix2 r kk) * tWh m c t (ix2 cc kk))
      = stepTerm (aX m c) (aH m c) (aWi m c) (aWh m c) (tileRow ti r) (tileCol tj cc) tk := by
  unfold stepTerm
  congr 1
  · exact Finset.sum_congr rfl fun kk _ =>
      congrArg₂ (fun a b : EReal => a * b) (iblk0_apply m c t ti tj tk ht r kk) (iblk2_apply m c t ti tj tk ht cc kk)
  · exact Finset.sum_congr rfl fun kk _ =>
      congrArg₂ (fun a b : EReal => a * b) (iblk1_apply m c t ti tj tk ht r kk) (iblk3_apply m c t ti tj tk ht cc kk)

set_option maxHeartbeats 8000000 in
theorem acc_inv : ∀ (n : ℕ) (hn : n < cfg0.N) (ti : Fin 8) (tj : Fin 4) (k : ℕ) (hk : k < 8), n = ti.val * 32 + tj.val * 8 + k →
    ∀ r cc : Fin 1024, ((outsAt (F := Ideal) m c n hn).2.2 : Vec Ideal S1024x1024 .f32) (ix2 r cc)
      = accAfter (aX m c) (aH m c) (aWi m c) (aWh m c) (tileRow ti r) (tileCol tj cc) k := by
  intro n
  induction n using Nat.strong_induction_on with
  | _ n ih =>
    intro hn ti tj k hk ht r cc
    by_cases h0 : n % 8 = 0
    · have hk0 : k = 0 := by omega
      subst hk0
      have e : (outsAt (F := Ideal) m c n hn).2.2 = _ := acc_first (F := Ideal) m c ⟨n, hn⟩ h0
      rw [e]
      refine (pay3_apply (iblk m c 0 ⟨n, hn⟩) (iblk m c 2 ⟨n, hn⟩) (iblk m c 1 ⟨n, hn⟩) (iblk m c 3 ⟨n, hn⟩) r cc).trans ?_
      refine (step_at m c ⟨n, hn⟩ ti tj ⟨0, hk⟩ ht r cc).trans ?_
      show _ = stepTermN _ _ _ _ _ _ 0
      unfold stepTermN
      rw [dif_pos hk]
    · have hk0 : k ≠ 0 := by omega
      obtain ⟨k', rfl⟩ := Nat.exists_eq_succ_of_ne_zero hk0
      have ih' := ih (n - 1) (by omega) (Nat.lt_of_le_of_lt (Nat.sub_le _ _) hn) ti tj k' (by omega) (by omega) r cc
      have hstep : accAfter (aX m c) (aH m c) (aWi m c) (aWh m c) (tileRow ti r) (tileCol tj cc) (k' + 1)
          = accAfter (aX m c) (aH m c) (aWi m c) (aWh m c) (tileRow ti r) (tileCol tj cc) k'
            + stepTerm (aX m c) (aH m c) (aWi m c) (aWh m c) (tileRow ti r) (tileCol tj cc) ⟨k' + 1, hk⟩ := by
        show _ + stepTermN _ _ _ _ _ _ (k' + 1) = _
        unfold stepTermN
        rw [dif_pos hk]
      have e : (outsAt (F := Ideal) m c n hn).2.2 = _ := acc_later (F := Ideal) m c ⟨n, hn⟩ h0
      rw [e, hstep, ← ih', ← step_at m c ⟨n, hn⟩ ti tj ⟨k' + 1, hk⟩ ht r cc]
      exact pay4_apply (iblk m c 0 ⟨n, hn⟩) (iblk m c 2 ⟨n, hn⟩) (iblk m c 1 ⟨n, hn⟩) (iblk m c 3 ⟨n, hn⟩)
        (outsAt (F := Ideal) m c (n - 1) (Nat.lt_of_le_of_lt (Nat.sub_le _ _) hn)).2.2 r cc

end Cert.KernelIdeal.Body

end
-- ==== Proof.PayloadBand.lean ====
/-
  The finishing payloads of the tiled program, read at an index.

  The finishing step works on 8 bands of 128 rows.  In each band the pre-activation at (r, cc) is the
  accumulator there plus the first bias at cc plus the second bias at cc (a [1,1024] bias row is
  broadcast down the 128 rows); the gate value is the logistic function of it, the new cell is
  c·s + s·tanh z and the new hidden value is s·tanh(new cell).  All eight bands compute the same
  expression, so each is the specification's cell and hidden value of that pre-activation.
-/
import proofs.«142987_j23811298689968_2_alg».proof.Proof.Gen.KernelIdeal.Skeleton
import proofs.«142987_j23811298689968_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- The pre-activation of a band at (r, cc): the accumulator plus the two bias rows, each bias row
read at its column whatever the row. -/
theorem pre_at (a : FVec Ideal S128x1024 .f32) (bi bh : FVec Ideal S1x1024 .f32) (r : Fin 128) (cc : Fin 1024) :
    addf (addf a (broadcastTo S128x1024 (shapeCast S1x1024 bi shapeCasts_S1x1024_S1x1024) broadcasts_S1x1024_S128x1024))
        (broadcastTo S128x1024 (shapeCast S1x1024 bh shapeCasts_S1x1024_S1x1024) broadcasts_S1x1024_S128x1024) (ix2 r cc)
      = (a (ix2 r cc) + bi (ix2 (0 : Fin 1) cc)) + bh (ix2 (0 : Fin 1) cc) := by
  rw [addf_apply, addf_apply, shapeCast_self, shapeCast_self, broadcastTo_1b_ab_apply, broadcastTo_1b_ab_apply]

/-- The new cell of a band, elementwise: old cell times gate plus gate times tanh, is the
specification's cell value of the pre-activation. -/
theorem cell_of_pre (Z cb : FVec Ideal S128x1024 .f32) (i : S128x1024.Idx) (z : EReal) (hz : Z i = z) :
    addf (mulf cb (logistic Z)) (mulf (logistic Z) (tanh Z)) i = Cert.GateSpec.cellOf z (cb i) := by
  subst hz; rfl

/-- The new hidden value of a band, elementwise: gate times tanh of the new cell, is the
specification's hidden value of the pre-activation. -/
theorem hid_of_pre (Z cb : FVec Ideal S128x1024 .f32) (i : S128x1024.Idx) (z : EReal) (hz : Z i = z) :
    mulf (logistic Z) (tanh (addf (mulf cb (logistic Z)) (mulf (logistic Z) (tanh Z)))) i
      = Cert.GateSpec.hidOf z (cb i) := by
  subst hz; rfl

/-- The first band's new cell at (r, cc) is the cell value of the pre-activation there. -/
theorem cell_band0 (a : Vec Ideal S128x1024 .f32) (bi bh : Vec Ideal S1x1024 .f32) (cb : Vec Ideal S128x1024 .f32)
    (r : Fin 128) (cc : Fin 1024) :
    k0_pay7 (F := Ideal) a bi bh cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay5 (F := Ideal) a bi bh) cb (ix2 r cc) _ (pre_at a bi bh r cc)

/-- The first band's new hidden value at (r, cc) is the hidden value of the pre-activation there. -/
theorem hid_band0 (a : Vec Ideal S128x1024 .f32) (bi bh : Vec Ideal S1x1024 .f32) (cb : Vec Ideal S128x1024 .f32)
    (r : Fin 128) (cc : Fin 1024) :
    k0_pay8 (F := Ideal) a bi bh cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay5 (F := Ideal) a bi bh) cb (ix2 r cc) _ (pre_at a bi bh r cc)

/-- The second band's new cell at (r, cc) is the cell value of the pre-activation there. -/
theorem cell_band1 (a : Vec Ideal S128x1024 .f32) (bi bh : Vec Ideal S1x1024 .f32) (cb : Vec Ideal S128x1024 .f32)
    (r : Fin 128) (cc : Fin 1024) :
    k0_pay12 (F := Ideal) (k0_pay10 (F := Ideal) a bi bh) (k0_pay11 (F := Ideal) a bi bh) cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay9 (F := Ideal) a bi bh) cb (ix2 r cc) _ (pre_at a bi bh r cc)

/-- The second band's new hidden value at (r, cc) is the hidden value of the pre-activation there. -/
theorem hid_band1 (a : Vec Ideal S128x1024 .f32) (bi bh : Vec Ideal S1x1024 .f32) (cb : Vec Ideal S128x1024 .f32)
    (r : Fin 128) (cc : Fin 1024) :
    k0_pay13 (F := Ideal) (k0_pay10 (F := Ideal) a bi bh) (k0_pay11 (F := Ideal) a bi bh) cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay9 (F := Ideal) a bi bh) cb (ix2 r cc) _ (pre_at a bi bh r cc)

/-- The third band's new cell at (r, cc) is the cell value of the pre-activation there. -/
theorem cell_band2 (a : Vec Ideal S128x1024 .f32) (bi bh : Vec Ideal S1x1024 .f32) (cb : Vec Ideal S128x1024 .f32)
    (r : Fin 128) (cc : Fin 1024) :
    k0_pay16 (F := Ideal) a bi bh cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay14 (F := Ideal) a bi bh) cb (ix2 r cc) _ (pre_at a bi bh r cc)

/-- The third band's new hidden value at (r, cc) is the hidden value of the pre-activation there. -/
theorem hid_band2 (a : Vec Ideal S128x1024 .f32) (bi bh : Vec Ideal S1x1024 .f32) (cb : Vec Ideal S128x1024 .f32)
    (r : Fin 128) (cc : Fin 1024) :
    k0_pay17 (F := Ideal) a bi bh cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay14 (F := Ideal) a bi bh) cb (ix2 r cc) _ (pre_at a bi bh r cc)

/-- The fourth band's new cell at (r, cc) is the cell value of the pre-activation there. -/
theorem cell_band3 (a : Vec Ideal S128x1024 .f32) (bi bh : Vec Ideal S1x1024 .f32) (cb : Vec Ideal S128x1024 .f32)
    (r : Fin 128) (cc : Fin 1024) :
    k0_pay20 (F := Ideal) a bi bh cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay18 (F := Ideal) a bi bh) cb (ix2 r cc) _ (pre_at a bi bh r cc)

/-- The fourth band's new hidden value at (r, cc) is the hidden value of the pre-activation there. -/
theorem hid_band3 (a : Vec Ideal S128x1024 .f32) (bi bh : Vec Ideal S1x1024 .f32) (cb : Vec Ideal S128x1024 .f32)
    (r : Fin 128) (cc : Fin 1024) :
    k0_pay21 (F := Ideal) a bi bh cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay18 (F := Ideal) a bi bh) cb (ix2 r cc) _ (pre_at a bi bh r cc)

/-- The fifth band's new cell at (r, cc) is the cell value of the pre-activation there. -/
theorem cell_band4 (a : Vec Ideal S128x1024 .f32) (bi bh : Vec Ideal S1x1024 .f32) (cb : Vec Ideal S128x1024 .f32)
    (r : Fin 128) (cc : Fin 1024) :
    k0_pay24 (F := Ideal) a bi bh cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay22 (F := Ideal) a bi bh) cb (ix2 r cc) _ (pre_at a bi bh r cc)

/-- The fifth band's new hidden value at (r, cc) is the hidden value of the pre-activation there. -/
theorem hid_band4 (a : Vec Ideal S128x1024 .f32) (bi bh : Vec Ideal S1x1024 .f32) (cb : Vec Ideal S128x1024 .f32)
    (r : Fin 128) (cc : Fin 1024) :
    k0_pay25 (F := Ideal) a bi bh cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay22 (F := Ideal) a bi bh) cb (ix2 r cc) _ (pre_at a bi bh r cc)

/-- The sixth band's new cell at (r, cc) is the cell value of the pre-activation there. -/
theorem cell_band5 (a : Vec Ideal S128x1024 .f32) (bi bh : Vec Ideal S1x1024 .f32) (cb : Vec Ideal S128x1024 .f32)
    (r : Fin 128) (cc : Fin 1024) :
    k0_pay28 (F := Ideal) a bi bh cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay26 (F := Ideal) a bi bh) cb (ix2 r cc) _ (pre_at a bi bh r cc)

/-- The sixth band's new hidden value at (r, cc) is the hidden value of the pre-activation there. -/
theorem hid_band5 (a : Vec Ideal S128x1024 .f32) (bi bh : Vec Ideal S1x1024 .f32) (cb : Vec Ideal S128x1024 .f32)
    (r : Fin 128) (cc : Fin 1024) :
    k0_pay29 (F := Ideal) a bi bh cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay26 (F := Ideal) a bi bh) cb (ix2 r cc) _ (pre_at a bi bh r cc)

/-- The seventh band's new cell at (r, cc) is the cell value of the pre-activation there. -/
theorem cell_band6 (a : Vec Ideal S128x1024 .f32) (bi bh : Vec Ideal S1x1024 .f32) (cb : Vec Ideal S128x1024 .f32)
    (r : Fin 128) (cc : Fin 1024) :
    k0_pay34 (F := Ideal) (k0_pay30 (F := Ideal) a bi) (k0_pay31 (F := Ideal) bh) cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay32 (F := Ideal) (k0_pay30 (F := Ideal) a bi) (k0_pay31 (F := Ideal) bh)) cb (ix2 r cc) _ (pre_at a bi bh r cc)

/-- The seventh band's new hidden value at (r, cc) is the hidden value of the pre-activation there. -/
theorem hid_band6 (a : Vec Ideal S128x1024 .f32) (bi bh : Vec Ideal S1x1024 .f32) (cb : Vec Ideal S128x1024 .f32)
    (r : Fin 128) (cc : Fin 1024) :
    k0_pay35 (F := Ideal) (k0_pay30 (F := Ideal) a bi) (k0_pay31 (F := Ideal) bh) cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay32 (F := Ideal) (k0_pay30 (F := Ideal) a bi) (k0_pay31 (F := Ideal) bh)) cb (ix2 r cc) _ (pre_at a bi bh r cc)

/-- The eighth band's new cell at (r, cc) is the cell value of the pre-activation there. -/
theorem cell_band7 (a : Vec Ideal S128x1024 .f32) (bi bh : Vec Ideal S1x1024 .f32) (cb : Vec Ideal S128x1024 .f32)
    (r : Fin 128) (cc : Fin 1024) :
    k0_pay38 (F := Ideal) a bi bh cb (ix2 r cc)
      = Cert.GateSpec.cellOf (((a (ix2 r cc) : EReal) + (bi (ix2 (0 : Fin 1) cc) : EReal)) + (bh (ix2 (0 : Fin 1) cc) : EReal)) (cb (ix2 r cc)) :=
  cell_of_pre (k0_pay36 (F := Ideal) a bi bh) cb (ix2 r cc) _ (pre_at a bi bh r cc)

/-- The eighth band's new hidden value at (r, cc) is the hidden value of the pre-activation there. -/
theorem hid_band7 (a : Vec Ideal S128x1024 .f32) (bi bh : Vec Ideal S1x1024 .f32) (cb : Vec Ideal S128x1024 .f32)
    (r : Fin 128) (cc : Fin 1024) :
    k0_pay39 (F := Ideal) a bi bh cb (ix2 r cc)
      = Cert.GateSpec.hidOf (((a (ix2 r cc) : EReal) + (bi (ix2 (0 : Fin 1) cc) : EReal)) + (bh (ix2 (0 : Fin 1) cc) : EReal)) (cb (ix2 r cc)) :=
  hid_of_pre (k0_pay36 (F := Ideal) a bi bh) cb (ix2 r cc) _ (pre_at a bi bh r cc)

end Cert.KernelIdeal.PayloadAt

end
-- ==== Proof.TiledSum.lean ====
/-
  The tiled order of summation gives the same pre-activation as the plain order.

  The tiled program adds up eight partial results, one per block of 512 contraction indices, each
  partial result being the sum of the two partial dot products over that block; the two biases come
  last.  The plain program forms each of the two full dot products over all 4096 indices and adds the
  biases in between.  Addition on the extended reals is commutative and associative, so both orders
  give the same number.
-/
import proofs.«142987_j23811298689968_2_alg».proof.Proof.Spec
import Mathlib.Algebra.BigOperators.Fin
import Mathlib.Algebra.BigOperators.Intervals
import Mathlib.Logic.Equiv.Fin.Basic

namespace Cert.GateSpec

open Idealize.ShloMosaic Idealize.ShloMosaic.ValueIdx

/-- A sum taken block by block, 8 blocks of 512 indices each, is the sum over all 4096 indices:
every index is number `kk` of block `kb` for exactly one pair `(kb, kk)`. -/
theorem sum_blk {β : Type*} [AddCommMonoid β] (g : Fin 4096 → β) :
    ∑ kb : Fin 8, ∑ kk : Fin 512, g (blk kb kk) = ∑ k : Fin 4096, g k := by
  rw [← Fintype.sum_prod_type']
  refine Fintype.sum_equiv (finProdFinEquiv : Fin 8 × Fin 512 ≃ Fin (8 * 512)) _ _ ?_
  rintro ⟨kb, kk⟩
  refine congrArg g (Fin.ext ?_)
  show kb.val * 512 + kk.val = kk.val + 512 * kb.val
  omega

/-- The accumulator after steps 0, …, n is the sum of the contributions of those steps. -/
theorem accAfter_eq_sum (x h : SBH.Idx → EReal) (wi wh : SHH.Idx → EReal) (p : Fin 8192) (q : Fin 4096)
    (n : ℕ) :
    accAfter x h wi wh p q n = ∑ j ∈ Finset.range (n + 1), stepTermN x h wi wh p q j := by
  induction n with
  | zero => simp [accAfter]
  | succ n ih => rw [accAfter, ih, Finset.sum_range_succ _ (n + 1)]

/-- After the last step the accumulator holds the sum of the eight block contributions. -/
theorem accAfter_seven (x h : SBH.Idx → EReal) (wi wh : SHH.Idx → EReal) (p : Fin 8192) (q : Fin 4096) :
    accAfter x h wi wh p q 7 = ∑ kb : Fin 8, stepTerm x h wi wh p q kb := by
  rw [accAfter_eq_sum, ← Fin.sum_univ_eq_sum_range (fun j => stepTermN x h wi wh p q j) (7 + 1)]
  refine Finset.sum_congr rfl fun kb _ => ?_
  simp only [stepTermN]
  exact dif_pos kb.isLt

/-- The eight block contributions add up to the two full dot products. -/
theorem sum_stepTerm (x h : SBH.Idx → EReal) (wi wh : SHH.Idx → EReal) (p : Fin 8192) (q : Fin 4096) :
    ∑ kb : Fin 8, stepTerm x h wi wh p q kb
      = (∑ k : Fin 4096, x (ix2 p k) * wi (ix2 q k)) + (∑ k : Fin 4096, h (ix2 p k) * wh (ix2 q k)) := by
  simp only [stepTerm]
  rw [Finset.sum_add_distrib,
    sum_blk (fun k => x (ix2 p k) * wi (ix2 q k)),
    sum_blk (fun k => h (ix2 p k) * wh (ix2 q k))]

/-- The pre-activation formed in the tiled order equals the pre-activation formed in the plain order. -/
theorem preactTiled_eq (x h : SBH.Idx → EReal) (wi wh : SHH.Idx → EReal) (bi bh : SH.Idx → EReal)
    (p : Fin 8192) (q : Fin 4096) :
    preactTiled x h wi wh bi bh p q = preact x h wi wh bi bh p q := by
  unfold preactTiled preact
  rw [accAfter_seven, sum_stepTerm, add_right_comm (∑ k : Fin 4096, x (ix2 p k) * wi (ix2 q k))]

end Cert.GateSpec
-- ==== Proof.KI.Finish.lean ====
/-
  The two result arrays after the run.

  At the last contraction step the body finishes its tile in eight bands of 128 rows.  Band by band the value
  stored is the gate cell applied to (accumulator + input bias + hidden bias) and the old cell value; the band
  loads of the accumulator read what the step's own store just left.  With the accumulator's contents known
  (all eight steps accumulated), and the order of the additions immaterial on the extended reals, each stored
  tile is the corresponding block of the specification's array; the tiles cover the arrays.
-/
import proofs.«142987_j23811298689968_2_alg».proof.Proof.KI.Accum
import proofs.«142987_j23811298689968_2_alg».proof.Proof.PayloadBand
import proofs.«142987_j23811298689968_2_alg».proof.Proof.TiledSum

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.GateSpec Cert.KernelIdeal.PayloadAt Cert.KernelIdeal.Blocks Idealize.ShloMosaic.ValueIdx

theorem HS1_canon (c : Dev nD) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg12 : Memref sig .tc .vmem S1024x1024 .f32) (harg12 : arg12.IsWhole)
    (x0 x1 x2 x3 : Vec F S1024x512 .bf16) (xs : Vec F S1024x1024 .f32) :
    View.canon (runLast.sl.HS_1 c arg3 harg3 arg4 harg4 arg5 harg5 arg6 harg6 arg12 harg12 x0 x1 x2 x3 xs) = k0_pay4 x0 x2 x1 x3 xs := by
  unfold runLast.sl.HS_1
  refine (View.canon_unit_zero (S := S1024x1024) zeroOffsets _ _).trans ?_
  simp only [View.readAt_eq_ld, Memref.IsWhole.read_unread, View.ld_unit_zero (S := S1024x512) zeroOffsets, View.ld_unit_zero (S := S1024x1024) zeroOffsets]

theorem accBand (c : Dev nD) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg12 : Memref sig .tc .vmem S1024x1024 .f32) (harg12 : arg12.IsWhole)
    (x0 x1 x2 x3 : Vec F S1024x512 .bf16) (xs : Vec F S1024x1024 .f32) (B : Rect S1024x1024) (x : B.shape.Idx) :
    arg12.view.readCov (runLast.sl.HS_1 c arg3 harg3 arg4 harg4 arg5 harg5 arg6 harg6 arg12 harg12 x0 x1 x2 x3 xs) B.toLoadRect x
      = k0_pay4 x0 x2 x1 x3 xs (B.emb x) := by
  rw [View.readCov_eq_canon', HS1_canon]
  rfl

theorem band_col (o : ℕ) (inb : ∀ a, (![o, 0] : Fin 2 → ℕ) a + S128x1024.size a ≤ S1024x1024.size a) (r' : Fin 128) (cc : Fin 1024) :
    ((Rect.unit (s := S1024x1024) ![o, 0] S128x1024.size inb).emb (ix2 r' cc)) 1 = cc := by
  apply Fin.ext
  rw [Rect.emb_apply]
  show 0 + 1 * cc.val = cc.val
  omega

theorem ld_row (X : Vec F S1x1024 .f32) (inb : ∀ a, (![0, 0] : Fin 2 → ℕ) a + (![1, 1024] : Fin 2 → ℕ) a ≤ S1x1024.size a) :
    View.ld X (Rect.unit (s := S1x1024) ![0, 0] ![1, 1024] inb) = X := View.ld_unit_zero (S := S1x1024) zeroOffsets inb X

def hidTile (x0 x1 x2 x3 : Vec Ideal S1024x512 .bf16) (x4 x5 : Vec Ideal S1x1024 .f32) (x6 xs : Vec Ideal S1024x1024 .f32) : S1024x1024.Idx → EReal :=
  fun y => hidOf ((k0_pay4 (F := Ideal) x0 x2 x1 x3 xs y + x4 (ix2 (0 : Fin 1) (y 1))) + x5 (ix2 (0 : Fin 1) (y 1))) (x6 y)
def cellTile (x0 x1 x2 x3 : Vec Ideal S1024x512 .bf16) (x4 x5 : Vec Ideal S1x1024 .f32) (x6 xs : Vec Ideal S1024x1024 .f32) : S1024x1024.Idx → EReal :=
  fun y => cellOf ((k0_pay4 (F := Ideal) x0 x2 x1 x3 xs y + x4 (ix2 (0 : Fin 1) (y 1))) + x5 (ix2 (0 : Fin 1) (y 1))) (x6 y)

theorem hidLast_pieces (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i)
    (x0 x1 x2 x3 : Vec Ideal S1024x512 .bf16) (x4 x5 : Vec Ideal S1x1024 .f32) (x6 xs : Vec Ideal S1024x1024 .f32) :
    ∀ p ∈ (runLast (F := Ideal) c i arg3 harg3 arg4 harg4 arg5 harg5 arg6 harg6 arg7 harg7 arg8 harg8 arg9 harg9 arg10 harg10 arg11 harg11 arg12 harg12 hc0 hc1 hc2 x0 x1 x2 x3 x4 x5 x6 xs).1, ∀ x : p.1.shape.Idx, p.2 x = hidTile x0 x1 x2 x3 x4 x5 x6 xs (p.1.emb x) := by
  unfold runLast
  dsimp only
  intro p hp
  simp only [List.mem_cons, List.mem_nil_iff, or_false] at hp
  rcases hp with rfl | rfl | rfl | rfl | rfl | rfl | rfl | rfl
  all_goals
    intro x
    obtain ⟨r', cc, rfl⟩ : ∃ (r' : Fin 128) (cc : Fin 1024), x = ix2 r' cc := ⟨x 0, x 1, eq_ix2 x⟩
    simp only [runLast.sl.r, runLast.sl.r_1, runLast.sl.r_2, runLast.sl.r_3, runLast.sl.r_4, runLast.sl.r_5, runLast.sl.v22, runLast.sl.v47, runLast.sl.v72, runLast.sl.v97, runLast.sl.v122, runLast.sl.v147, runLast.sl.v172, runLast.sl.v197]
    refine (by first | exact hid_band0 _ _ _ _ r' cc | exact hid_band1 _ _ _ _ r' cc | exact hid_band2 _ _ _ _ r' cc | exact hid_band3 _ _ _ _ r' cc | exact hid_band4 _ _ _ _ r' cc | exact hid_band5 _ _ _ _ r' cc | exact hid_band6 _ _ _ _ r' cc | exact hid_band7 _ _ _ _ r' cc : _ = _).trans ?_
    unfold hidTile
    erw [band_col]
    simp only [accBand, View.readAt_eq_ld, Memref.IsWhole.read_unread]
    erw [ld_row, ld_row]
    rfl

theorem cellLast_pieces (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (hc0 : ¬condFirst i) (hc1 : condLater i) (hc2 : condLast i)
    (x0 x1 x2 x3 : Vec Ideal S1024x512 .bf16) (x4 x5 : Vec Ideal S1x1024 .f32) (x6 xs : Vec Ideal S1024x1024 .f32) :
    ∀ p ∈ (runLast (F := Ideal) c i arg3 harg3 arg4 harg4 arg5 harg5 arg6 harg6 arg7 harg7 arg8 harg8 arg9 harg9 arg10 harg10 arg11 harg11 arg12 harg12 hc0 hc1 hc2 x0 x1 x2 x3 x4 x5 x6 xs).2.1, ∀ x : p.1.shape.Idx, p.2 x = cellTile x0 x1 x2 x3 x4 x5 x6 xs (p.1.emb x) := by
  unfold runLast
  dsimp only
  intro p hp
  simp only [List.mem_cons, List.mem_nil_iff, or_false] at hp
  rcases hp with rfl | rfl | rfl | rfl | rfl | rfl | rfl | rfl
  all_goals
    intro x
    obtain ⟨r', cc, rfl⟩ : ∃ (r' : Fin 128) (cc : Fin 1024), x = ix2 r' cc := ⟨x 0, x 1, eq_ix2 x⟩
    simp only [runLast.sl.r, runLast.sl.r_1, runLast.sl.r_2, runLast.sl.r_3, runLast.sl.r_4, runLast.sl.r_5, runLast.sl.v22, runLast.sl.v47, runLast.sl.v72, runLast.sl.v97, runLast.sl.v122, runLast.sl.v147, runLast.sl.v172, runLast.sl.v197]
    refine (by first | exact cell_band0 _ _ _ _ r' cc | exact cell_band1 _ _ _ _ r' cc | exact cell_band2 _ _ _ _ r' cc | exact cell_band3 _ _ _ _ r' cc | exact cell_band4 _ _ _ _ r' cc | exact cell_band5 _ _ _ _ r' cc | exact cell_band6 _ _ _ _ r' cc | exact cell_band7 _ _ _ _ r' cc : _ = _).trans ?_
    unfold cellTile
    erw [band_col]
    simp only [accBand, View.readAt_eq_ld, Memref.IsWhole.read_unread]
    erw [ld_row, ld_row]
    rfl

variable (m : (ℓ : Loc nD τ sig) → Buf (Elt Ideal) ℓ) (c : Dev nD)

attribute [local irreducible] outsAt accFirst accMid accLast hidLast cellLast idleOut

/-- The specification's two arrays of the launch contents. -/
abbrev hidG : SBH.Idx → EReal := hidArr (aX m c) (aH m c) (aC m c) (aWi m c) (aWh m c) (aBi m c) (aBh m c)
abbrev cellG : SBH.Idx → EReal := cellArr (aX m c) (aH m c) (aC m c) (aWi m c) (aWh m c) (aBi m c) (aBh m c)

theorem last_point (t : Fin cfg0.N) (ti : Fin 8) (tj : Fin 4) (ht : t.val = ti.val * 32 + tj.val * 8 + 7) :
    ¬t.val % 8 = 0 ∧ t.val % 8 = 7 := by omega

set_option maxHeartbeats 8000000 in
/-- The hid tile stored at the last step of output tile (ti, tj) is, index by index, the hid array of the specification. -/
theorem hid_at (t : Fin cfg0.N) (ti : Fin 8) (tj : Fin 4) (ht : t.val = ti.val * 32 + tj.val * 8 + 7) (r cc : Fin 1024) :
    ((outsAt (F := Ideal) m c t.val t.isLt).1 : Vec Ideal S1024x1024 .f32) (ix2 r cc) = hidG m c (ix2 (tileRow ti r) (tileCol tj cc)) := by
  obtain ⟨h0, h7⟩ := last_point t ti tj ht
  have hacc := (congrFun (acc_later (F := Ideal) m c t h0) (ix2 r cc)).symm.trans (acc_inv m c t.val t.isLt ti tj 7 (by norm_num) ht r cc)
  refine (congrFun (hid_last (F := Ideal) m c t h0 h7) (ix2 r cc)).trans ?_
  refine (View.canon_apply_of_pieces (hidTile (iblk m c 0 t) (iblk m c 1 t) (iblk m c 2 t) (iblk m c 3 t) (iblk m c 4 t) (iblk m c 5 t) (iblk m c 6 t) (outsAt (F := Ideal) m c (t.val - 1) (Nat.lt_of_le_of_lt (Nat.sub_le _ _) t.isLt)).2.2) _
    (hidLast_pieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt (F := Ideal) m c (t.val - 1) (Nat.lt_of_le_of_lt (Nat.sub_le _ _) t.isLt)).2.2) (ix2 r cc) (coverLastHid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt (F := Ideal) m c (t.val - 1) (Nat.lt_of_le_of_lt (Nat.sub_le _ _) t.isLt)).2.2 (ix2 r cc))).trans ?_
  unfold hidTile
  show hidOf ((k0_pay4 (F := Ideal) (iblk m c 0 t) (iblk m c 2 t) (iblk m c 1 t) (iblk m c 3 t) (outsAt (F := Ideal) m c (t.val - 1) (Nat.lt_of_le_of_lt (Nat.sub_le _ _) t.isLt)).2.2 (ix2 r cc)
      + (iblk (F := Ideal) m c 4 t : Vec Ideal S1x1024 .f32) (ix2 (0 : Fin 1) cc)) + (iblk (F := Ideal) m c 5 t : Vec Ideal S1x1024 .f32) (ix2 (0 : Fin 1) cc))
      ((iblk (F := Ideal) m c 6 t : Vec Ideal S1024x1024 .f32) (ix2 r cc)) = _
  rw [hacc, iblk4_apply m c t ti tj 7 ht cc, iblk5_apply m c t ti tj 7 ht cc, iblk6_apply m c t ti tj 7 ht r cc]
  show hidOf (preactTiled (aX m c) (aH m c) (aWi m c) (aWh m c) (aBi m c) (aBh m c) (tileRow ti r) (tileCol tj cc)) _ = _
  rw [preactTiled_eq]
  rfl

set_option maxHeartbeats 8000000 in
/-- The cell tile stored at the last step of output tile (ti, tj) is, index by index, the cell array of the specification. -/
theorem cell_at (t : Fin cfg0.N) (ti : Fin 8) (tj : Fin 4) (ht : t.val = ti.val * 32 + tj.val * 8 + 7) (r cc : Fin 1024) :
    ((outsAt (F := Ideal) m c t.val t.isLt).2.1 : Vec Ideal S1024x1024 .f32) (ix2 r cc) = cellG m c (ix2 (tileRow ti r) (tileCol tj cc)) := by
  obtain ⟨h0, h7⟩ := last_point t ti tj ht
  have hacc := (congrFun (acc_later (F := Ideal) m c t h0) (ix2 r cc)).symm.trans (acc_inv m c t.val t.isLt ti tj 7 (by norm_num) ht r cc)
  refine (congrFun (cell_last (F := Ideal) m c t h0 h7) (ix2 r cc)).trans ?_
  refine (View.canon_apply_of_pieces (cellTile (iblk m c 0 t) (iblk m c 1 t) (iblk m c 2 t) (iblk m c 3 t) (iblk m c 4 t) (iblk m c 5 t) (iblk m c 6 t) (outsAt (F := Ideal) m c (t.val - 1) (Nat.lt_of_le_of_lt (Nat.sub_le _ _) t.isLt)).2.2) _
    (cellLast_pieces c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt (F := Ideal) m c (t.val - 1) (Nat.lt_of_le_of_lt (Nat.sub_le _ _) t.isLt)).2.2) (ix2 r cc) (coverLastCell c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (notFirst_of h0) (later_of h0) ((condLast_iff t).mpr h7) (iblk m c 0 t) (iblk m c 1 t) (iblk m c 2 t) (iblk m c 3 t) (iblk m c 4 t) (iblk m c 5 t) (iblk m c 6 t) (outsAt (F := Ideal) m c (t.val - 1) (Nat.lt_of_le_of_lt (Nat.sub_le _ _) t.isLt)).2.2 (ix2 r cc))).trans ?_
  unfold cellTile
  show cellOf ((k0_pay4 (F := Ideal) (iblk m c 0 t) (iblk m c 2 t) (iblk m c 1 t) (iblk m c 3 t) (outsAt (F := Ideal) m c (t.val - 1) (Nat.lt_of_le_of_lt (Nat.sub_le _ _) t.isLt)).2.2 (ix2 r cc)
      + (iblk (F := Ideal) m c 4 t : Vec Ideal S1x1024 .f32) (ix2 (0 : Fin 1) cc)) + (iblk (F := Ideal) m c 5 t : Vec Ideal S1x1024 .f32) (ix2 (0 : Fin 1) cc))
      ((iblk (F := Ideal) m c 6 t : Vec Ideal S1024x1024 .f32) (ix2 r cc)) = _
  rw [hacc, iblk4_apply m c t ti tj 7 ht cc, iblk5_apply m c t ti tj 7 ht cc, iblk6_apply m c t ti tj 7 ht r cc]
  show cellOf (preactTiled (aX m c) (aH m c) (aWi m c) (aWh m c) (aBi m c) (aBh m c) (tileRow ti r) (tileCol tj cc)) _ = _
  rw [preactTiled_eq]
  rfl

set_option maxHeartbeats 4000000 in
/-- What a last-step point writes back into the hid array is its block of the specification's hid array. -/
theorem flushed7_eq (t : Fin cfg0.N) (hf : (cfg0.win 7).flush t = true) :
    (dats (F := Ideal) m 0 c).flushed 7 t = ((cfg0.win 7).blk t).view.read (Elt Ideal) (hidG m c) := by
  have h7 : t.val % 8 = 7 := (flush0_7 t).mp hf
  have hN : t.val < 256 := lt_of_lt_of_eq t.isLt N_0
  obtain ⟨ti, tj, ht⟩ : ∃ (ti : Fin 8) (tj : Fin 4), t.val = ti.val * 32 + tj.val * 8 + 7 :=
    ⟨⟨t.val / 32, by omega⟩, ⟨t.val / 8 % 4, by omega⟩, by show t.val = t.val / 32 * 32 + t.val / 8 % 4 * 8 + 7; omega⟩
  show (cfg0.win 7).cut (grid0.coords t) ((dats m 0 c).after 7 t) = _
  rw [after7]
  refine funext (fun (y : (⟨2, ![1024, 1024]⟩ : Shape).Idx) => ?_)
  obtain ⟨r, cc, rfl⟩ : ∃ (r cc : Fin 1024), y = ix2 r cc := ⟨y 0, y 1, eq_ix2 y⟩
  rw [out7_read (hidG m c) t ti tj 7 ht r cc]
  exact hid_at m c t ti tj ht r cc

/-- Every index of the hid array lies in the block of the last-step point of its tile. -/
theorem cover7 (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 256 := N_0
  refine ⟨⟨(i 0).val / 1024 * 32 + (i 1).val / 1024 * 8 + 7, by rw [hN]; omega⟩, (flush0_7 _).mpr (by show ((i 0).val / 1024 * 32 + (i 1).val / 1024 * 8 + 7) % 8 = 7; omega), ?_⟩
  exact (out7_mem _ ⟨(i 0).val / 1024, by omega⟩ ⟨(i 1).val / 1024, by omega⟩ 7 rfl i).mpr ⟨rfl, rfl⟩

/-- So the hid array ends as the specification's. -/
theorem final7 : (dats (F := Ideal) m 0 c).arrAt 7 cfg0.N = hidG m c :=
  (dats m 0 c).arrAt_eq_of_cover 7 (hidG m c) (fun t hf => flushed7_eq m c t hf) (cover7)

set_option maxHeartbeats 4000000 in
/-- What a last-step point writes back into the cell array is its block of the specification's cell array. -/
theorem flushed8_eq (t : Fin cfg0.N) (hf : (cfg0.win 8).flush t = true) :
    (dats (F := Ideal) m 0 c).flushed 8 t = ((cfg0.win 8).blk t).view.read (Elt Ideal) (cellG m c) := by
  have h7 : t.val % 8 = 7 := (flush0_8 t).mp hf
  have hN : t.val < 256 := lt_of_lt_of_eq t.isLt N_0
  obtain ⟨ti, tj, ht⟩ : ∃ (ti : Fin 8) (tj : Fin 4), t.val = ti.val * 32 + tj.val * 8 + 7 :=
    ⟨⟨t.val / 32, by omega⟩, ⟨t.val / 8 % 4, by omega⟩, by show t.val = t.val / 32 * 32 + t.val / 8 % 4 * 8 + 7; omega⟩
  show (cfg0.win 8).cut (grid0.coords t) ((dats m 0 c).after 8 t) = _
  rw [after8]
  refine funext (fun (y : (⟨2, ![1024, 1024]⟩ : Shape).Idx) => ?_)
  obtain ⟨r, cc, rfl⟩ : ∃ (r cc : Fin 1024), y = ix2 r cc := ⟨y 0, y 1, eq_ix2 y⟩
  rw [out8_read (cellG m c) t ti tj 7 ht r cc]
  exact cell_at m c t ti tj ht r cc

/-- Every index of the cell array lies in the block of the last-step point of its tile. -/
theorem cover8 (i : S8192x4096.Idx) : ∃ t : Fin cfg0.N, (cfg0.win 8).flush t = true ∧ i ∈ ((cfg0.win 8).blk t).view.set := by
  have hi0 : (i 0).val < 8192 := (i 0).isLt
  have hi1 : (i 1).val < 4096 := (i 1).isLt
  have hN : cfg0.N = 256 := N_0
  refine ⟨⟨(i 0).val / 1024 * 32 + (i 1).val / 1024 * 8 + 7, by rw [hN]; omega⟩, (flush0_8 _).mpr (by show ((i 0).val / 1024 * 32 + (i 1).val / 1024 * 8 + 7) % 8 = 7; omega), ?_⟩
  exact (out8_mem _ ⟨(i 0).val / 1024, by omega⟩ ⟨(i 1).val / 1024, by omega⟩ 7 rfl i).mpr ⟨rfl, rfl⟩

/-- So the cell array ends as the specification's. -/
theorem final8 : (dats (F := Ideal) m 0 c).arrAt 8 cfg0.N = cellG m c :=
  (dats m 0 c).arrAt_eq_of_cover 8 (cellG m c) (fun t hf => flushed8_eq m c t hf) (cover8)

/-- Every weakly fair execution of the tiled program terminates with the two result arrays at the specification's
    arrays of the launch contents, and the argument arrays unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v6_0) = hidG m c
      ∧ r.2.mem ((c.tc : Thread nD τ).loc main_v6_1) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 7).trans (final7 m c), ((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Body

end
-- ==== Proof.RefSide.lean ====
/-
  The plain program computes the gate cell of the specification.

  Reading the plain program one operation at a time, its value number 10 at an index (p,q) is the
  pre-activation z(p,q) with the four terms added in the program's own order; value 16 is 1/(1+e^(−z)),
  value 17 is tanh z, value 20 is the new cell c·s + s·tanh z and value 22 is the new hidden state
  s·tanh(new cell).  The transposed weight read at (k,q) is the weight at (q,k), and a broadcast bias
  read at (p,q) is the bias at q.
-/
import proofs.«142987_j23811298689968_2_alg».proof.Proof.Gen.ReferenceIdeal.Read
import proofs.«142987_j23811298689968_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.GateSpec Idealize.ShloMosaic Idealize.ShloMosaic.ValueIdx

/-- The bit pattern 0x3F800000 is the number one. -/
theorem ofBits_one_f32 : Ideal.ofBits .f32 0x3F800000#32 = 1 := by
  simp [Ideal.ofBits, Ideal.ieee, -EReal.coe_mul]; norm_num

/-- Value 10 of the plain program is the pre-activation: the first dot product, plus the first bias,
plus the second dot product, plus the second bias, each read at the row and column of the index. -/
theorem v10_eq (x0 x1 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (i : S8192x4096.Idx) :
    val_main_v10 (F := Ideal) x0 x1 x3 x4 x5 x6 i = preact x0 x1 x3 x5 x4 x6 (i 0) (i 1) := by
  rw [val_main_v10_apply, val_main_v7_apply, val_main_v4_apply, val_main_v1_apply, val_main_v3_apply,
    val_main_v2_apply, val_main_v6_apply, val_main_v9_apply, val_main_v8_apply]
  simp only [val_main_v0_apply, val_main_v5_apply, Ideal.addf_def]
  unfold preact
  have e1 : ∀ k : Fin 4096, lidx_main_v1 i k = ix2 (i 0) k := fun k =>
    funext fun a => Fin.ext (by match a with | ⟨0, _⟩ => rfl | ⟨1, _⟩ => rfl)
  have e2 : ∀ k : Fin 4096, idx_main_v0 (ridx_main_v1 i k) = ix2 (i 1) k := fun k =>
    funext fun a => Fin.ext (by match a with | ⟨0, _⟩ => rfl | ⟨1, _⟩ => rfl)
  have e3 : ∀ k : Fin 4096, lidx_main_v6 i k = ix2 (i 0) k := fun k =>
    funext fun a => Fin.ext (by match a with | ⟨0, _⟩ => rfl | ⟨1, _⟩ => rfl)
  have e4 : ∀ k : Fin 4096, idx_main_v5 (ridx_main_v6 i k) = ix2 (i 1) k := fun k =>
    funext fun a => Fin.ext (by match a with | ⟨0, _⟩ => rfl | ⟨1, _⟩ => rfl)
  have e5 : idx_main_v2 (idx_main_v3 i) = ix1 (i 1) :=
    funext fun a => Fin.ext (by match a with | ⟨0, _⟩ => rfl)
  have e6 : idx_main_v8 (idx_main_v9 i) = ix1 (i 1) :=
    funext fun a => Fin.ext (by match a with | ⟨0, _⟩ => rfl)
  simp only [e1, e2, e3, e4, e5, e6]
  rfl

/-- Value 16 is the gate value 1/(1+e^(−z)) of the pre-activation z. -/
theorem v16_eq (x0 x1 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (i : S8192x4096.Idx) :
    val_main_v16 (F := Ideal) x0 x1 x3 x4 x5 x6 i = Ideal.logistic (preact x0 x1 x3 x5 x4 x6 (i 0) (i 1)) := by
  rw [val_main_v16_apply, val_main_v15_apply, val_main_cst_0_apply, val_main_v14_apply, val_main_v13_apply,
    val_main_cst_apply, val_main_v12_apply, val_main_v11_apply, v10_eq]
  simp only [Ideal.hostDivf_def, Ideal.addf_def, Ideal.hostUnary_exp_def, Ideal.hostNegf_def, Ideal.negf_def,
    Ideal.ofBits_def, ofBits_one_f32]
  rfl

/-- Value 17 is the hyperbolic tangent of the pre-activation. -/
theorem v17_eq (x0 x1 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (i : S8192x4096.Idx) :
    val_main_v17 (F := Ideal) x0 x1 x3 x4 x5 x6 i = Ideal.tanh (preact x0 x1 x3 x5 x4 x6 (i 0) (i 1)) := by
  rw [val_main_v17_apply, v10_eq, Ideal.hostUnary_tanh_def]

/-- Value 20 is the new cell value c·s + s·tanh z. -/
theorem v20_eq (x0 x1 x2 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (i : S8192x4096.Idx) :
    val_main_v20 (F := Ideal) x0 x1 x2 x3 x4 x5 x6 i = cellOf (preact x0 x1 x3 x5 x4 x6 (i 0) (i 1)) (x2 i) := by
  rw [val_main_v20_apply, val_main_v18_apply, val_main_v19_apply, v16_eq, v17_eq]
  simp only [Ideal.addf_def, Ideal.mulf_def]
  rfl

/-- Value 22 is the new hidden value s·tanh(new cell). -/
theorem v22_eq (x0 x1 x2 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal))
    (i : S8192x4096.Idx) :
    val_main_v22 (F := Ideal) x0 x1 x2 x3 x4 x5 x6 i = hidOf (preact x0 x1 x3 x5 x4 x6 (i 0) (i 1)) (x2 i) := by
  rw [val_main_v22_apply, val_main_v21_apply, v16_eq, v20_eq]
  simp only [Ideal.mulf_def, Ideal.hostUnary_tanh_def]
  rfl

/-- The plain program's new hidden state is the specification's hidden array. -/
theorem hid_eq (x0 x1 x2 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v22 (F := Ideal) x0 x1 x2 x3 x4 x5 x6 = hidArr x0 x1 x2 x3 x5 x4 x6 := by
  funext i
  exact v22_eq x0 x1 x2 x3 x4 x5 x6 i

/-- The plain program's new cell state is the specification's cell array. -/
theorem cell_eq (x0 x1 x2 : (⟨S8192x4096, .f32⟩ : BufTy).Contents (Elt Ideal))
    (x3 : (⟨S4096x4096, .f32⟩ : BufTy).Contents (Elt Ideal)) (x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v20 (F := Ideal) x0 x1 x2 x3 x4 x5 x6 = cellArr x0 x1 x2 x3 x5 x4 x6 := by
  funext i
  exact v20_eq x0 x1 x2 x3 x4 x5 x6 i

end Cert.ReferenceIdeal.RefValue

end
-- ==== Proof.lean ====
/-
  The certificate of the tiled gate-cell kernel against its plain reference.

  The kernel computes, tile by tile, z = x·Wiᵀ + h·Whᵀ accumulated over eight blocks of the contraction axis in
  a scratch tile, and at the last block adds the two biases and applies the gate cell; the reference computes
  the same cell from z = ((x·Wiᵀ + bi) + h·Whᵀ) + bh.  Over the extended reals the two pre-activations are the
  same sum in a different order, the conversions of the operands to a narrower float format are the identity,
  and the kernel's logistic is the reference's 1/(1+e^(−z)); so both programs end with the same two arrays.
  The three frames are the runs themselves with the results forgotten; no rewrite was applied when the kernel
  was idealized, so there is nothing to preserve.
-/
import proofs.«142987_j23811298689968_2_alg».proof.Defs
import proofs.«142987_j23811298689968_2_alg».proof.Proof.Gen.Kernel
import proofs.«142987_j23811298689968_2_alg».proof.Proof.Gen.KernelIdeal
import proofs.«142987_j23811298689968_2_alg».proof.Proof.Gen.ReferenceIdeal
import proofs.«142987_j23811298689968_2_alg».proof.Proof.Gen.Pre_finite_inputs
import proofs.«142987_j23811298689968_2_alg».proof.Proof.Gen.ReferenceIdeal.Run
import proofs.«142987_j23811298689968_2_alg».proof.Proof.KW.Frame
import proofs.«142987_j23811298689968_2_alg».proof.Proof.KI.Finish
import proofs.«142987_j23811298689968_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the specification's two arrays of the (agreeing) launch contents. -/
theorem algebraic : Cert.algebraic_KernelIdeal_ReferenceIdeal := by
  intro m ρ m' ρ' _ hagree
  refine ⟨fun c => Cert.KernelIdeal.Body.hidG m c, fun c => Cert.KernelIdeal.Body.cellG m c,
    Cert.KernelIdeal.Body.run_value m ρ, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.val_main_v22_eq _ _ _ _ _ _ _).trans
      ((Cert.ReferenceIdeal.RefValue.hid_eq _ _ _ _ _ _ _).trans ?_))
    rw [(hagree c).1, (hagree c).2.1, (hagree c).2.2.1, (hagree c).2.2.2.1, (hagree c).2.2.2.2.1,
      (hagree c).2.2.2.2.2.1, (hagree c).2.2.2.2.2.2]
  · refine (h c).2.1.trans ((Cert.ReferenceIdeal.Read.val_main_v20_eq _ _ _ _ _ _ _).trans
      ((Cert.ReferenceIdeal.RefValue.cell_eq _ _ _ _ _ _ _).trans ?_))
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
